-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S64x64 : Shape := ⟨2, ![64, 64]⟩
abbrev S2048x2048 : Shape := ⟨2, ![2048, 2048]⟩
abbrev S64 : Shape := ⟨1, ![64]⟩
abbrev S_ : Shape := ⟨0, ![]⟩
abbrev S16x2048 : Shape := ⟨2, ![16, 2048]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S64 : S_.BroadcastsInDim S64 (![] : Fin 0 → Fin S64.rank)
  reducesTo_S64_S_d0 : S64.ReducesTo [0] S_
  reducesTo_S16x2048x64_S16x2048_d2 : S16x2048x64.ReducesTo [2] S16x2048
  bcast_S_S16x2048 : S_.BroadcastsInDim S16x2048 (![] : Fin 0 → Fin S16x2048.rank)
  reducesTo_S16x2048_S_d0_1 : S16x2048.ReducesTo [0, 1] S_

variable [Facts]

def fn_part1 {F : FTy → Type} [FloatOps F] (main_arg0 : FVec F S16x2048x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x2048x64 .f32 := mulf main_arg0 main_arg0
  let main_cst_6 : FVec F S_ .f32 := constant S_ .f32 0x00000000#32
  let main_v20 : FVec F S16x2048 .f32 := (fun x v => Host.reduceAdd x v reducesTo_S16x2048x64_S16x2048_d2 h_S_) main_v19 main_cst_6
  let main_cst_7 : FVec F S_ .f32 := constant S_ .f32 0x00000000#32
  let main_v21 : FVec F S16x2048 .f32 := broadcastInDim S16x2048 ![] bcast_S_S16x2048 main_cst_7
  let main_v22 : IVec S16x2048 1 := cmpf .ogt main_v20 main_v21
  let main_c_8 : IVec S_ 1 := constantI S_ 1 1#1
  let main_v23 : IVec S_ 1 := (fun x v => Host.reduce IntOp.andi x v reducesTo_S16x2048_S_d0_1 h_S_) main_v22 main_c_8
  let main_v24 : IVec S_ 1 := andi main_v18 main_v23
  main_v24

def fn {F : FTy → Type} [FloatOps F] (main_arg0 : FVec F S16x2048x64 .f32) (main_arg1 : FVec F S64x64 .f32) (main_arg2 : FVec F S2048x2048 .f32) (main_arg3 : FVec F S64 .f32) (main_arg4 : IVec S2048x2048 32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_v13 main_v16
-- ==== Kernel.lean ====
abbrev S16x2048x64 : Shape := ⟨3, ![16, 2048, 64]⟩
abbrev S64x64 : Shape := ⟨2, ![64, 64]⟩
abbrev S2048x2048 : Shape := ⟨2, ![2048, 2048]⟩
abbrev S64 : Shape := ⟨1, ![64]⟩
abbrev S1x1x64 : Shape := ⟨3, ![1, 1, 64]⟩
abbrev S256x256 : Shape := ⟨2, ![256, 256]⟩
abbrev S16x256x64 : Shape := ⟨3, ![16, 256, 64]⟩
abbrev S1x2048x64 : Shape := ⟨3, ![1, 2048, 64]⟩
abbrev S2048x64 : Shape := ⟨2, ![2048, 64]⟩
abbrev S256x64 : Shape := ⟨2, ![256, 64]⟩
abbrev S256 : Shape := ⟨1, ![256]⟩
abbrev S256x1 : Shape := ⟨2, ![256, 1]⟩
abbrev S1x256 : Shape := ⟨2, ![1, 256]⟩
abbrev S1x256x64 : Shape := ⟨3, ![1, 256, 64]⟩

abbrev nBuf : Space → Nat
  | .hbm => 7
  | .vmem => 10
  | .smem => 0
  | _ => 0

abbrev bufTy : (tb : Table) → Fin (tcTables nBuf tb) → BufTy
  | .hbm, ⟨0, _⟩ => ⟨S16x2048x64, .f32⟩
  | .hbm, ⟨1, _⟩ => ⟨S64x64, .f32⟩
  | .hbm, ⟨2, _⟩ => ⟨S2048x2048, .f32⟩
  | .hbm, ⟨3, _⟩ => ⟨S64, .f32⟩
  | .hbm, ⟨4, _⟩ => ⟨S2048x2048, .i32⟩
  | .hbm, ⟨5, _⟩ => ⟨S1x1x64, .f32⟩
  | .hbm, ⟨6, _⟩ => ⟨S16x2048x64, .f32⟩
  | .local _ .vmem, ⟨0, _⟩ => ⟨S16x2048x64, .f32⟩
  | .local _ .vmem, ⟨1, _⟩ => ⟨S64x64, .f32⟩
  | .local _ .vmem, ⟨2, _⟩ => ⟨S256x256, .f32⟩
  | .local _ .vmem, ⟨3, _⟩ => ⟨S256x256, .f32⟩
  | .local _ .vmem, ⟨4, _⟩ => ⟨S256x256, .i32⟩
  | .local _ .vmem, ⟨5, _⟩ => ⟨S256x256, .i32⟩
  | .local _ .vmem, ⟨6, _⟩ => ⟨S1x1x64, .f32⟩
  | .local _ .vmem, ⟨7, _⟩ => ⟨S16x256x64, .f32⟩
  | .local _ .vmem, ⟨8, _⟩ => ⟨S16x256x64, .f32⟩
  | .local _ .vmem, ⟨9, _⟩ => ⟨S16x256x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c256_i32 : BitVec 32 := 256#32
  let v9 : BitVec 32 := Scalar.muli arg0 c256_i32
  v9
def k0_mult2 (i : grid0.Coords) : BitVec 32 :=
  let arg1 : BitVec 32 := BitVec.ofNat 32 (i 1).val
  let c256_i32_6 : BitVec 32 := 256#32
  let v11 : BitVec 32 := Scalar.muli arg1 c256_i32_6
  v11
@[reducible] def k0_t1_loop : Scf.Loop 32 :=
  let c0_i32_7 : BitVec 32 := 0#32
  let c16_i32 : BitVec 32 := 16#32
  let v13 : BitVec 32 := Scalar.addi c0_i32_7 c16_i32
  let c1_i32 : BitVec 32 := 1#32
  ⟨c0_i32_7, v13, c1_i32⟩
def k0_off1 (k0_t1 : Fin k0_t1_loop.trips) : Fin 3 → Nat :=
  let c0_i32_7 : BitVec 32 := 0#32
  let c1_i32 : BitVec 32 := 1#32
  let arg9 : BitVec 32 := Scf.iv c0_i32_7 c1_i32 k0_t1
  let c0_i32_10 : BitVec 32 := 0#32
  let c0_i32_11 : BitVec 32 := 0#32
  ![arg9.toNat, 0, 0]
def k0_off2 (i : grid0.Coords) : Fin 2 → Nat :=
  let arg0 : BitVec 32 := BitVec.ofNat 32 (i 0).val
  let c256_i32 : BitVec 32 := 256#32
  let v9 : BitVec 32 := Scalar.muli arg0 c256_i32
  let v10 : BitVec 32 := v9
  let v19 : Index := Scalar.indexCast v10
  let c0_12 : Index := 0#32
  ![v19.toNat, 0]
def k0_off3 (i : grid0.Coords) : Fin 2 → Nat :=
  let arg1 : BitVec 32 := BitVec.ofNat 32 (i 1).val
  let c256_i32_6 : BitVec 32 := 256#32
  let v11 : BitVec 32 := Scalar.muli arg1 c256_i32_6
  let v12 : BitVec 32 := v11
  let v23 : Index := Scalar.indexCast v12
  let c0_15 : Index := 0#32
  ![v23.toNat, 0]
def k0_off4 (k0_t1 : Fin k0_t1_loop.trips) : Fin 3 → Nat :=
  let c0_i32_7 : BitVec 32 := 0#32
  let c1_i32 : BitVec 32 := 1#32
  let arg9 : BitVec 32 := Scf.iv c0_i32_7 c1_i32 k0_t1
  let v46 : Index := Scalar.indexCast arg9
  let c0_20 : Index := 0#32
  let c0_21 : Index := 0#32
  ![v46.toNat, 0, 0]
def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_9 : BitVec 32 := 0#32
  let v16 : BitVec 1 := Scalar.cmpi .ne v15 c0_i32_9
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S16x2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S16x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S64_S1x1x64 : S64.ShapeCasts S1x1x64
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  inb_S256x256_S256x256_0_0 : ∀ a, (![0, 0] : Fin 2 → Nat) a + S256x256.size a ≤ S256x256.size a
  h_S256x256 : 0 < S256x256.numel
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  squeezes_S1x2048x64_S2048x64 : S1x2048x64.Squeezes S2048x64
  h_S256x64 : 0 < S256x64.numel
  reduces_S256x64_S256 : S256x64.Reduces [1] S256
  shapeCasts_S256_S256x1 : S256.ShapeCasts S256x1
  transposes_S256x1_p1_0_S1x256 : S256x1.Transposes [1, 0] S1x256
  broadcasts_S256x1_S256x256 : S256x1.Broadcasts S256x256
  broadcasts_S1x256_S256x256 : S1x256.Broadcasts S256x256
  h_S1x256x64 : 0 < S1x256x64.numel
  shapeCasts_S1x256x64_S256x64 : S1x256x64.ShapeCasts S256x64
  shapeCasts_S256x64_S1x256x64 : S256x64.ShapeCasts S1x256x64
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  broadcasts_S1x1x64_S16x256x64 : S1x1x64.Broadcasts S16x256x64
  dot_S256x64_S64x64_S256x64_1_0_0_1_n_n_wf : DotDims.WF S256x64 S64x64 S256x64 [1] [0] [0] [1] [] []
  dot_S256x64_S256x64_S256x256_1_1_0_0_n_n_wf : DotDims.WF S256x64 S256x64 S256x256 [1] [1] [0] [0] [] []
  dot_S256x256_S256x64_S256x64_1_0_0_1_n_n_wf : DotDims.WF S256x256 S256x64 S256x64 [1] [0] [0] [1] [] []
  hrank0 : 0 < grid0.rank
  k0_mult1_dvd : ∀ i : grid0.Coords, 256 ∣ (k0_mult1 i).toNat
  k0_mult2_dvd : ∀ i : grid0.Coords, 256 ∣ (k0_mult2 i).toNat
  k0_t1_ok : k0_t1_loop.OK
  k0_off1_inb : ∀ k0_t1 : Fin k0_t1_loop.trips, ∀ a, (k0_off1 k0_t1) a + S1x2048x64.size a ≤ S16x2048x64.size a
  k0_off2_inb : ∀ i : grid0.Coords, ∀ a, (k0_off2 i) a + S256x64.size a ≤ S2048x64.size a
  k0_off3_inb : ∀ i : grid0.Coords, ∀ a, (k0_off3 i) a + S256x64.size a ≤ S2048x64.size a
  k0_off4_inb : ∀ k0_t1 : Fin k0_t1_loop.trips, ∀ a, (k0_off4 k0_t1) a + S1x256x64.size a ≤ S16x256x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x2048x64.size a ≤ S16x2048x64.size a
  hwx0_0 : ∀ i : grid0.Coords, EltTy.bits .f32 = 32 ∨ (Rect.block (s := S16x2048x64) S16x2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S2048x2048.size a
  hwx0_2 : ∀ i : grid0.Coords, EltTy.bits .f32 = 32 ∨ (Rect.block (s := S2048x2048) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S2048x2048.size a
  hwx0_3 : ∀ i : grid0.Coords, EltTy.bits .i32 = 32 ∨ (Rect.block (s := S2048x2048) S256x256.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S1x1x64.size a
  hwx0_4 : ∀ i : grid0.Coords, EltTy.bits .f32 = 32 ∨ (Rect.block (s := S1x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256x64.size a ≤ S16x2048x64.size a
  hwx0_5 : ∀ i : grid0.Coords, EltTy.bits .f32 = 32 ∨ (Rect.block (s := S16x2048x64) S16x256x64.size (cc0_transform_5 i) (hinb0_5 i)).WholeWords (EltTy.packing .f32)

variable [Facts₀]

def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.ofSpec (Memref.whole main_arg0) S16x2048x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S16x256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16x2048x64 : Shape := ⟨3, ![16, 2048, 64]⟩
abbrev S64x64 : Shape := ⟨2, ![64, 64]⟩
abbrev S2048x2048 : Shape := ⟨2, ![2048, 2048]⟩
abbrev S64 : Shape := ⟨1, ![64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S1x2048x2048 : Shape := ⟨3, ![1, 2048, 2048]⟩
abbrev S1x1x64 : Shape := ⟨3, ![1, 1, 64]⟩

abbrev nBuf : Space → Nat
  | .hbm => 26
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S64x64, .f32⟩
  | .hbm, ⟨2, _⟩ => ⟨S2048x2048, .f32⟩
  | .hbm, ⟨3, _⟩ => ⟨S64, .f32⟩
  | .hbm, ⟨4, _⟩ => ⟨S2048x2048, .i32⟩
  | .hbm, ⟨5, _⟩ => ⟨S16x2048x64, .f32⟩
  | .hbm, ⟨6, _⟩ => ⟨S16x2048x2048, .f32⟩
  | .hbm, ⟨7, _⟩ => ⟨S16x2048x64, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S16x2048x1, .f32⟩
  | .hbm, ⟨12, _⟩ => ⟨S16x1x2048, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S2048x2048, .f32⟩
  | .hbm, ⟨18, _⟩ => ⟨S2048x2048, .f32⟩
  | .hbm, ⟨19, _⟩ => ⟨S1x2048x2048, .f32⟩
  | .hbm, ⟨20, _⟩ => ⟨S16x2048x2048, .f32⟩
  | .hbm, ⟨21, _⟩ => ⟨S16x2048x2048, .f32⟩
  | .hbm, ⟨22, _⟩ => ⟨S16x2048x64, .f32⟩
  | .hbm, ⟨23, _⟩ => ⟨S1x1x64, .f32⟩
  | .hbm, ⟨24, _⟩ => ⟨S16x2048x64, .f32⟩
  | .hbm, ⟨25, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  reducesTo_S16x2048x64_S16x2048_d2 : S16x2048x64.ReducesTo [2] S16x2048
  h_S_ : 0 < S_.numel
  bcast_S16x2048_S16x2048x1_0_1 : S16x2048.BroadcastsInDim S16x2048x1 (![0, 1] : Fin 2 → Fin S16x2048x1.rank)
  transposes_S16x2048x1_S16x1x2048_0_2_1 : S16x2048x1.Transposes [0, 2, 1] S16x1x2048
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  bcast_S64_S1x1x64_2 : S64.BroadcastsInDim S1x1x64 (![2] : Fin 1 → Fin S1x1x64.rank)
  bcast_S1x1x64_S16x2048x64_0_1_2 : S1x1x64.BroadcastsInDim S16x2048x64 (![0, 1, 2] : Fin 3 → Fin S16x2048x64.rank)
  dot_S16x2048x64_S64x64_S16x2048x64_2_0_01_1_n_n_wf : DotDims.WF S16x2048x64 S64x64 S16x2048x64 [2] [0] [0, 1] [1] [] []
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S64x64_S16x2048x64_2_0_01_1_n_n : DotDims S16x2048x64 S64x64 S16x2048x64 where
  lhsContracting := [2]
  rhsContracting := [0]
  lhsNonContracting := [0, 1]
  rhsNonContracting := [1]
  lhsBatch := []
  rhsBatch := []
  wf := dot_S16x2048x64_S64x64_S16x2048x64_2_0_01_1_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.LoopB.lean ====
/-
  The batch loop of the graph-convolution kernel, gone through by its invariant.

  One trip `k` of the loop reads rows of batch `k` of the resident input (through a view of the input
  buffer sliced at batch `k`), reads row-block `k` of the accumulator, and stores the sum of that
  row-block and the trip's product back into row-block `k`.  The invariant before trip `k`: the input
  buffer at its contents `X`, the accumulator at the stores of the trips before `k` written over its
  contents `G` at loop entry — each trip's store taken at the contents the earlier trips left.
-/
import proofs.«139093_j82867099009361_2_alg».proof.Proof.Gen.Kernel.Frame
import proofs.«139093_j82867099009361_2_alg».proof.Proof.Gen.Kernel.Loops

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip's resources: the input buffer at its contents, the accumulator at any. -/
abbrev Trip (c : Dev nD) (arg2 : Memref sig .tc .vmem S16x2048x64 .f32) (arg8 : Memref sig .tc .vmem S16x256x64 .f32)
    (X : BufTy.Contents (Elt F) arg2.view.ty) (f : BufTy.Contents (Elt F) arg8.view.ty) : sProp 𝕄 :=
  iprop((arg2.view.loc (c : Thread nD τ) ↦[arg2.view.set]{fullShare} X) ∗ (arg8.view.loc (c : Thread nD τ) ↦[arg8.view.set]{fullShare} f))

/-- One trip at a symbolic `k`: from the input at `X` and the accumulator at `f`, the region runs to the input at
    `X` and the accumulator at `f` with the trip's store written; the store (its rectangle, row-block `k`, and its
    payload, a function of `X` and `f`) is what the run finds. -/
@[irreducible] def trip (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (v3 : Vec F S256x256 .f32) (v4 : Vec F S256x256 .i32) (v7 : Vec F S64x64 .f32)
    (X : BufTy.Contents (Elt F) arg2.view.ty) (k : Fin k0_t1_loop.trips) :
    { L : (BufTy.Contents (Elt F) arg8.view.ty → List (View.Piece (Elt F) S16x256x64 .f32)) // ∀ (E : Set ℕ) (f : BufTy.Contents (Elt F) arg8.view.ty),
      Trip (F := F) c arg2 arg8 X f
      ⊢ wp frame (wpE (defs₀ (F := F)) Variants.none (c : Thread nD τ) none) E (k0_t1_body (F := F) i arg2 harg2 arg3 harg3 arg4 harg4 arg5 harg5 arg6 harg6 arg7 harg7 arg8 harg8 v3 v4 v7 k PUnit.unit)
          (fun _ => Trip (F := F) c arg2 arg8 X (arg8.view.writes (Elt F) f (L f))) } := by
  refine ⟨?_, fun E f => ?run⟩
  case run =>
    unfold k0_t1_body
    iintro ⟨HR_arg2, HW_arg8⟩
    sl_exec
    sl_step
    sl_close

/-- The trip's store, at the contents the trip finds in the accumulator. -/
abbrev tripL (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (v3 : Vec F S256x256 .f32) (v4 : Vec F S256x256 .i32) (v7 : Vec F S64x64 .f32)
    (X : BufTy.Contents (Elt F) arg2.view.ty) (k : Fin k0_t1_loop.trips) (f : BufTy.Contents (Elt F) arg8.view.ty) : List (View.Piece (Elt F) S16x256x64 .f32) :=
  (trip (F := F) c i arg2 harg2 arg3 harg3 arg4 harg4 arg5 harg5 arg6 harg6 arg7 harg7 arg8 harg8 v3 v4 v7 X k).1 f

/-- Trip `k`'s store in front of the stores before it (taken at the contents those left); past the last trip, nothing more. -/
@[irreducible] def pbStep (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (v3 : Vec F S256x256 .f32) (v4 : Vec F S256x256 .i32) (v7 : Vec F S64x64 .f32)
    (X : BufTy.Contents (Elt F) arg2.view.ty) (G : BufTy.Contents (Elt F) arg8.view.ty) (k : ℕ) (prev : List (View.Piece (Elt F) S16x256x64 .f32)) : List (View.Piece (Elt F) S16x256x64 .f32) :=
  if h : k < k0_t1_loop.trips then
    (tripL (F := F) c i arg2 harg2 arg3 harg3 arg4 harg4 arg5 harg5 arg6 harg6 arg7 harg7 arg8 harg8 v3 v4 v7 X ⟨k, h⟩ (arg8.view.writes (Elt F) G prev)) ++ prev
  else prev

/-- The stores of the trips before `k`, last first, over the accumulator's contents `G` at loop entry. -/
def pb (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (v3 : Vec F S256x256 .f32) (v4 : Vec F S256x256 .i32) (v7 : Vec F S64x64 .f32)
    (X : BufTy.Contents (Elt F) arg2.view.ty) (G : BufTy.Contents (Elt F) arg8.view.ty) : ℕ → List (View.Piece (Elt F) S16x256x64 .f32)
  | 0 => []
  | k + 1 => pbStep c i arg2 harg2 arg3 harg3 arg4 harg4 arg5 harg5 arg6 harg6 arg7 harg7 arg8 harg8 v3 v4 v7 X G k (pb c i arg2 harg2 arg3 harg3 arg4 harg4 arg5 harg5 arg6 harg6 arg7 harg7 arg8 harg8 v3 v4 v7 X G k)

theorem pb_succ (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (v3 : Vec F S256x256 .f32) (v4 : Vec F S256x256 .i32) (v7 : Vec F S64x64 .f32)
    (X : BufTy.Contents (Elt F) arg2.view.ty) (G : BufTy.Contents (Elt F) arg8.view.ty) (k : Fin k0_t1_loop.trips) :
    pb (F := F) c i arg2 harg2 arg3 harg3 arg4 harg4 arg5 harg5 arg6 harg6 arg7 harg7 arg8 harg8 v3 v4 v7 X G (k.val + 1)
      = (tripL (F := F) c i arg2 harg2 arg3 harg3 arg4 harg4 arg5 harg5 arg6 harg6 arg7 harg7 arg8 harg8 v3 v4 v7 X k (arg8.view.writes (Elt F) G (pb (F := F) c i arg2 harg2 arg3 harg3 arg4 harg4 arg5 harg5 arg6 harg6 arg7 harg7 arg8 harg8 v3 v4 v7 X G k.val))) ++ (pb (F := F) c i arg2 harg2 arg3 harg3 arg4 harg4 arg5 harg5 arg6 harg6 arg7 harg7 arg8 harg8 v3 v4 v7 X G k.val) := by
  rw [pb.eq_2]; unfold pbStep; exact dif_pos k.isLt

/-- The invariant before trip `k`. -/
abbrev inv (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (v3 : Vec F S256x256 .f32) (v4 : Vec F S256x256 .i32) (v7 : Vec F S64x64 .f32)
    (X : BufTy.Contents (Elt F) arg2.view.ty) (G : BufTy.Contents (Elt F) arg8.view.ty) (k : ℕ) (_u : PUnit) : sProp 𝕄 :=
  iprop((arg2.view.loc (c : Thread nD τ) ↦[arg2.view.set]{fullShare} X) ∗ (∃ f, (arg8.view.loc (c : Thread nD τ) ↦[arg8.view.set]{fullShare} f) ∗ ⌜f = arg8.view.writes (Elt F) G (pb (F := F) c i arg2 harg2 arg3 harg3 arg4 harg4 arg5 harg5 arg6 harg6 arg7 harg7 arg8 harg8 v3 v4 v7 X G k)⌝))

set_option warn.classDefReducibility false in
/-- The loop by its invariant: one trip takes the invariant at `k` to the invariant at `k + 1`. -/
@[sl_loop] def loopInv (c : Dev nD) (E : Set ℕ) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (v3 : Vec F S256x256 .f32) (v4 : Vec F S256x256 .i32) (v7 : Vec F S64x64 .f32)
    (X : BufTy.Contents (Elt F) arg2.view.ty) (G : BufTy.Contents (Elt F) arg8.view.ty) :
    LoopInvTy_k0_t1 (F := F) Unit ℕ (UR sig nD τ) ℕ Variants.none c none E i arg2 harg2 arg3 harg3 arg4 harg4 arg5 harg5 arg6 harg6 arg7 harg7 arg8 harg8 v3 v4 v7 where
  inv := inv (F := F) c i arg2 harg2 arg3 harg3 arg4 harg4 arg5 harg5 arg6 harg6 arg7 harg7 arg8 harg8 v3 v4 v7 X G
  step k acc := by
    iintro ⟨HR, ⟨%f, HW, %hf⟩⟩
    iapply (wp_wand_r Idealize.ShloMosaic.frame (wpE (defs₀ (F := F)) Variants.none (c : Thread nD τ) none) E)
    isplitl [HR HW]
    · iapply ((trip (F := F) c i arg2 harg2 arg3 harg3 arg4 harg4 arg5 harg5 arg6 harg6 arg7 harg7 arg8 harg8 v3 v4 v7 X k).2 E f)
      isplitl [HR]; · iexact HR
      iexact HW
    · iintro %_ ⟨HR, HW⟩
      isplitl [HR]; · iexact HR
      rw [pb_succ]
      iexists _; isplitl [HW]; · iexact HW
      ipureintro; rw [hf, ← View.writes_append]

end Cert.Kernel.Hand

end
-- ==== Proof.BodyB.lean ====
/-
  The graph-convolution kernel's body at every grid point, and the program's frame.

  The grid is 8 × 8: the first coordinate `qi` picks a block of 256 query rows, the second `ki` a tile of 256 key
  columns.  At each point the body multiplies the attention tile by the mask tile, and for each of the sixteen batches
  adds the tile's contribution to row-block `b` of an accumulator the kernel keeps between points; the accumulator is
  zeroed first where `ki = 0`, and where `ki = 7` the accumulator plus the bias row is stored into the output block.
  So there are three runs of the body (`run_A`: zero and accumulate; `run_B`: accumulate; `run_C`: accumulate and
  store), what the accumulator holds after each point is defined by recursion on the point (`scrAt`), and the region's
  invariant between points is the accumulator at those contents.
-/
import proofs.«139093_j82867099009361_2_alg».proof.Proof.Gen.Kernel.Frame
import proofs.«139093_j82867099009361_2_alg».proof.Proof.Gen.Kernel.Loops
import proofs.«139093_j82867099009361_2_alg».proof.Proof.LoopB
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The condition of the body's first conditional (the accumulator is zeroed): the second grid coordinate is 0. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 8 = 0 :=
  (by decide +kernel : ∀ t : Fin grid0.N, cond1 (grid0.coords t) ↔ t.val % 8 = 0)
/-- The condition of the body's second conditional (the output block is stored): the second grid coordinate is 7. -/
abbrev cond2 (i : grid0.Coords) : Prop := k0_cond2 i = 1#1
theorem hcond2 : ∀ t : Fin cfg0.N, cond2 (grid0.coords t) ↔ t.val % 8 = 7 :=
  (by decide +kernel : ∀ t : Fin grid0.N, cond2 (grid0.coords t) ↔ t.val % 8 = 7)

/-- The accumulator after the sixteen trips, from its contents `G` at loop entry: the trips' stores written over `G`.
    The three values the trips share are read before the loop: the attention tile, the mask tile and the weight matrix. -/
def loopOut (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (x0 : Vec F S16x2048x64 .f32) (x1 : Vec F S64x64 .f32) (x2 : Vec F S256x256 .f32) (x3 : Vec F S256x256 .i32) (G : BufTy.Contents (Elt F) arg8.view.ty) : BufTy.Contents (Elt F) arg8.view.ty :=
  arg8.view.writes (Elt F) G (pb (F := F) c i arg2 harg2 arg3 harg3 arg4 harg4 arg5 harg5 arg6 harg6 arg7 harg7 arg8 harg8 (View.readAt (Elt F) arg4.view (Rect.unit (s := S256x256) ![0, 0] S256x256.size inb_S256x256_S256x256_0_0).toLoadRect (harg4.unread x2)) (View.readAt (Elt F) arg5.view (Rect.unit (s := S256x256) ![0, 0] S256x256.size inb_S256x256_S256x256_0_0).toLoadRect (harg5.unread x3)) (View.readAt (Elt F) arg3.view (Rect.unit (s := S64x64) ![0, 0] S64x64.size inb_S64x64_S64x64_0_0).toLoadRect (harg3.unread x1)) (harg2.unread x0) G k0_t1_loop.trips)

/-- The zero fill of the whole accumulator, as a store. -/
def zeroFill : List (View.Piece (Elt F) S16x256x64 .f32) :=
  [⟨Rect.unit (s := S16x256x64) ![0, 0, 0] S16x256x64.size inb_S16x256x64_S16x256x64_0_0_0, k0_pay1 (F := F)⟩]

/-- The accumulator zeroed: the zero fill over arbitrary contents. -/
def zeroed (arg8 : Memref sig .tc .vmem S16x256x64 .f32) : BufTy.Contents (Elt F) arg8.view.ty :=
  arg8.view.writes (Elt F) arg8.view.junk (zeroFill (F := F))

/-- The output block's one store: the accumulator after the trips plus the bias row, over the whole block. -/
def outStore (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (x0 : Vec F S16x2048x64 .f32) (x1 : Vec F S64x64 .f32) (x2 : Vec F S256x256 .f32) (x3 : Vec F S256x256 .i32) (x4 : Vec F S1x1x64 .f32) (G : BufTy.Contents (Elt F) arg8.view.ty) : List (View.Piece (Elt F) S16x256x64 .f32) :=
  [⟨Rect.unit (s := S16x256x64) ![0, 0, 0] S16x256x64.size inb_S16x256x64_S16x256x64_0_0_0,
    k0_pay3 (View.readAt (Elt F) arg8.view (Rect.unit (s := S16x256x64) ![0, 0, 0] S16x256x64.size inb_S16x256x64_S16x256x64_0_0_0).toLoadRect (loopOut (F := F) c i arg2 harg2 arg3 harg3 arg4 harg4 arg5 harg5 arg6 harg6 arg7 harg7 arg8 harg8 x0 x1 x2 x3 G))
      (View.readAt (Elt F) arg6.view (Rect.unit (s := S1x1x64) ![0, 0, 0] S1x1x64.size inb_S1x1x64_S1x1x64_0_0_0).toLoadRect (harg6.unread x4))⟩]

set_option maxHeartbeats 2000000 in
/-- At a point that neither zeroes the accumulator nor stores the output: the loop alone, on the accumulator as the
    point before left it. -/
theorem run_B (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (hc1 : ¬cond1 i) (hc2 : ¬cond2 i) (x0 : Vec F S16x2048x64 .f32) (x1 : Vec F S64x64 .f32) (x2 : Vec F S256x256 .f32) (x3 : Vec F S256x256 .i32) (xs : Vec F S16x256x64 .f32) (E : Set ℕ) (K : PUnit → sProp 𝕄) :
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare xs
          ∗ (iprop(owns (c : Thread nD τ) arg2 fullShare x0 ∗ owns (c : Thread nD τ) arg3 fullShare x1 ∗ owns (c : Thread nD τ) arg4 fullShare x2 ∗ owns (c : Thread nD τ) arg5 fullShare x3
              ∗ (arg8.view.loc (c : Thread nD τ) ↦[arg8.view.set]{fullShare} loopOut (F := F) c i arg2 harg2 arg3 harg3 arg4 harg4 arg5 harg5 arg6 harg6 arg7 harg7 arg8 harg8 x0 x1 x2 x3 (harg8.unread xs))) -∗ K ⟨⟩))
        ⊢ wp frame (wpE (defs₀ (F := F)) Variants.none c none) E (cc0__gconv_kernel i arg2 harg2 arg3 harg3 arg4 harg4 arg5 harg5 arg6 harg6 arg7 harg7 arg8 harg8) K := by
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg8.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    unfold loopOut
    iexact HS

set_option maxHeartbeats 2000000 in
/-- At a point that zeroes the accumulator: the zero fill, then the loop. -/
theorem run_A (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (hc1 : cond1 i) (hc2 : ¬cond2 i) (x0 : Vec F S16x2048x64 .f32) (x1 : Vec F S64x64 .f32) (x2 : Vec F S256x256 .f32) (x3 : Vec F S256x256 .i32) (E : Set ℕ) (K : PUnit → sProp 𝕄) :
      iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg8 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3
              ∗ (arg8.view.loc (c : Thread nD τ) ↦[arg8.view.set]{fullShare} loopOut (F := F) c i arg2 harg2 arg3 harg3 arg4 harg4 arg5 harg5 arg6 harg6 arg7 harg7 arg8 harg8 x0 x1 x2 x3 (zeroed (F := F) arg8))) -∗ K ⟨⟩))
        ⊢ wp frame (wpE (defs₀ (F := F)) Variants.none c none) E (cc0__gconv_kernel i arg2 harg2 arg3 harg3 arg4 harg4 arg5 harg5 arg6 harg6 arg7 harg7 arg8 harg8) K := by
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%d, %fs, %hfs, HS⟩, Hk⟩
    obtain rfl := harg2.eq_unread hf0; obtain rfl := harg3.eq_unread hf1; obtain rfl := harg4.eq_unread hf2; obtain rfl := harg5.eq_unread hf3; obtain rfl := harg8.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    unfold loopOut zeroed
    rw [← View.writes_append]
    iexact HS

set_option maxHeartbeats 2000000 in
/-- At a point that stores the output: the loop, then the accumulator plus the bias row stored over the whole block. -/
theorem run_C (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (hc1 : ¬cond1 i) (hc2 : cond2 i) (x0 : Vec F S16x2048x64 .f32) (x1 : Vec F S64x64 .f32) (x2 : Vec F S256x256 .f32) (x3 : Vec F S256x256 .i32) (x4 : Vec F S1x1x64 .f32) (xs : Vec F S16x256x64 .f32) (E : Set ℕ) (K : PUnit → sProp 𝕄) :
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
              ∗ (∃ f, arg7.view.loc (c : Thread nD τ) ↦[arg7.view.set]{fullShare} arg7.view.writes (Elt F) f (outStore (F := F) c i arg2 harg2 arg3 harg3 arg4 harg4 arg5 harg5 arg6 harg6 arg7 harg7 arg8 harg8 x0 x1 x2 x3 x4 (harg8.unread xs)))
              ∗ (arg8.view.loc (c : Thread nD τ) ↦[arg8.view.set]{fullShare} loopOut (F := F) c i arg2 harg2 arg3 harg3 arg4 harg4 arg5 harg5 arg6 harg6 arg7 harg7 arg8 harg8 x0 x1 x2 x3 (harg8.unread xs))) -∗ K ⟨⟩))
        ⊢ wp frame (wpE (defs₀ (F := F)) Variants.none c none) E (cc0__gconv_kernel i arg2 harg2 arg3 harg3 arg4 harg4 arg5 harg5 arg6 harg6 arg7 harg7 arg8 harg8) K := by
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; unfold outStore loopOut; iexact H5
    unfold loopOut
    iexact HS

variable (m : (ℓ : Loc nD τ sig) → Buf (Elt F) ℓ) (ρ : Dev nD → PrngReg)

/-! ## The memrefs the body is called with at a point -/

abbrev ms0 (t : Fin cfg0.N) : Memref sig .tc .vmem S16x2048x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x256x64 .f32 := win0_5.stage (cfg0.slots t 5)
abbrev hs5 (t : Fin cfg0.N) : (ms5 t).IsWhole := hstage0_5 ((cfg0.slots t 5).cast nbuf0_5)
/-- The accumulator: the kernel's own scratch buffer, whole. -/
abbrev scM : Memref sig .tc .vmem S16x256x64 .f32 := Memref.whole cc0_scratch0
abbrev hsc : (scM).IsWhole := Memref.isWhole_whole _

/-- What the launch hands the region: the accumulator at some contents and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The output window is idle wherever the body does not store it, and is not written back there; -/
theorem idle5 : ∀ t : Fin cfg0.N, ¬cond2 (grid0.coords t) → cfg0.idle 5 (grid0.coords t) = true := by decide +kernel
theorem noFlush5 : ∀ t : Fin cfg0.N, ¬cond2 (grid0.coords t) → (cfg0.win 5).flush t = false := by decide +kernel
/-- it is live where the body stores it. -/
theorem live5 : ∀ t : Fin cfg0.N, cond2 (grid0.coords t) → cfg0.idle 5 (grid0.coords t) = false := by decide +kernel

/-! ## What the accumulator and the output block hold, point by point -/

/-- The accumulator after point `t`, from its contents `G` when the point's loop is entered. -/
def sNext (c : Dev nD) (t : Fin cfg0.N) (G : BufTy.Contents (Elt F) (scM).view.ty) : Vec F S16x256x64 .f32 :=
  (scM).view.read (Elt F) (loopOut (F := F) c (grid0.coords t) (ms0 t) (hs0 t) (ms1 t) (hs1 t) (ms2 t) (hs2 t) (ms3 t) (hs3 t) (ms4 t) (hs4 t) (ms5 t) (hs5 t) scM hsc (iblk m c 0 t) (iblk m c 1 t) (iblk m c 2 t) (iblk m c 3 t) G)

/-- The accumulator after point `n`: the point's loop run from the zeroed accumulator where the second grid coordinate
    is 0, else from what the point before left. -/
def scrAt (c : Dev nD) : (n : ℕ) → n < cfg0.N → Vec F S16x256x64 .f32
  | 0, h => sNext m c ⟨0, h⟩ (zeroed (F := F) scM)
  | n + 1, h => sNext m c ⟨n + 1, h⟩ (if (n + 1) % 8 = 0 then zeroed (F := F) scM else (hsc).unread (scrAt c n (Nat.lt_of_succ_lt h)))

/-- The accumulator's contents when point `n`'s loop is entered. -/
def entryAt (c : Dev nD) : (n : ℕ) → n < cfg0.N → BufTy.Contents (Elt F) (scM).view.ty
  | 0, _ => zeroed (F := F) scM
  | n + 1, h => if (n + 1) % 8 = 0 then zeroed (F := F) scM else (hsc).unread (scrAt m c n (Nat.lt_of_succ_lt h))

theorem scrAt_eq (c : Dev nD) (n : ℕ) (h : n < cfg0.N) : scrAt m c n h = sNext m c ⟨n, h⟩ (entryAt m c n h) := by
  cases n with
  | zero => rfl
  | succ n => rfl

theorem entryAt_zero (c : Dev nD) (n : ℕ) (h : n < cfg0.N) (h0 : n % 8 = 0) : entryAt m c n h = zeroed (F := F) scM := by
  cases n with
  | zero => rfl
  | succ n => exact if_pos h0

theorem entryAt_pos (c : Dev nD) (n : ℕ) (h : n < cfg0.N) (h0 : ¬ n % 8 = 0) :
    entryAt m c n h = (hsc).unread (scrAt m c (n - 1) (Nat.lt_of_le_of_lt (Nat.sub_le _ _) h)) := by
  cases n with
  | zero => exact absurd (Nat.zero_mod _) h0
  | succ n => exact if_neg h0

/-- The output block after point `t` (consulted where the body stores it): the one whole-block store read back. -/
def outAt (c : Dev nD) (t : Fin cfg0.N) : Vec F S16x256x64 .f32 :=
  (ms5 t).view.read (Elt F) ((ms5 t).view.writes (Elt F) (ms5 t).view.junk
    (outStore (F := F) c (grid0.coords t) (ms0 t) (hs0 t) (ms1 t) (hs1 t) (ms2 t) (hs2 t) (ms3 t) (hs3 t) (ms4 t) (hs4 t) (ms5 t) (hs5 t) scM hsc (iblk m c 0 t) (iblk m c 1 t) (iblk m c 2 t) (iblk m c 3 t) (iblk m c 4 t) (entryAt m c t.val t.isLt)))

/-- The one store of the output block covers it. -/
theorem outStore_cover (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (x0 : Vec F S16x2048x64 .f32) (x1 : Vec F S64x64 .f32) (x2 : Vec F S256x256 .f32) (x3 : Vec F S256x256 .i32) (x4 : Vec F S1x1x64 .f32) (G : BufTy.Contents (Elt F) arg8.view.ty) (y : S16x256x64.Idx) :
    ∃ pc ∈ outStore (F := F) c i arg2 harg2 arg3 harg3 arg4 harg4 arg5 harg5 arg6 harg6 arg7 harg7 arg8 harg8 x0 x1 x2 x3 x4 G, y ∈ pc.1.set :=
  View.cover_of_tiledL (outStore (F := F) c i arg2 harg2 arg3 harg3 arg4 harg4 arg5 harg5 arg6 harg6 arg7 harg7 arg8 harg8 x0 x1 x2 x3 x4 G) S16x256x64.size (by sl_kernel_rfl) y

/-- The region invariant before position `n`: before the first point what the launch hands over; afterwards the
    accumulator at what the point before left and the generator register at some state. -/
def PhiS (c : Dev nD) : (n : ℕ) → n ≤ cfg0.N → sProp 𝕄
  | 0, _ => Pipeline.ΦA spec0 c
  | n + 1, hn => iprop(iprop(owns (c : Thread nD τ) scM fullShare (scrAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (scrAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (scrAt m c (n - 1) (by omega))) ∗ (∃ r, prngReg c r)) := by
  cases n with
  | zero => exact absurd rfl hz
  | succ n => rfl

/-! ## The proof data -/

/-- The proof data of the one pipeline on core `c`: the arrays as the region finds them; after the body each input's buffer
    at its block, the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5_live (c : Dev nD) (t : Fin cfg0.N) (h : cond2 (grid0.coords t)) : (dats m 0 c).leavesExact 5 t = owns (c : Thread nD τ) (ms5 t) fullShare (outAt m c t) := by
  unfold Dat.leavesExact; rw [live5 t h, after5]

set_option maxHeartbeats 4800000 in
/-- The body at any point: the inputs' memrefs hold their blocks; the second grid coordinate says which of the three
    runs applies; the invariant hands the body the accumulator (at anything where it is zeroed first, else at what the
    point before left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, scrAt_eq]
  have hN : t.val < 64 := lt_of_lt_of_eq t.isLt (show cfg0.N = 64 from N_0)
  by_cases h0 : t.val % 8 = 0
  · have hc1 : cond1 (grid0.coords t) := (hcond1 t).mpr h0
    have hc2 : ¬cond2 (grid0.coords t) := fun h => by have := (hcond2 t).mp h; omega
    rw [Dat.leavesExact_idle (dats m 0 c) 5 t (idle5 t hc2) (noFlush5 t hc2)]
    rw [entryAt_zero m c t.val t.isLt h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply (run_A (F := F) c (grid0.coords t) (ms0 t) (hs0 t) (ms1 t) (hs1 t) (ms2 t) (hs2 t) (ms3 t) (hs3 t) (ms4 t) (hs4 t) (ms5 t) (hs5 t) scM hsc hc1 hc2 (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (run_A (F := F) c (grid0.coords t) (ms0 t) (hs0 t) (ms1 t) (hs1 t) (ms2 t) (hs2 t) (ms3 t) (hs3 t) (ms4 t) (hs4 t) (ms5 t) (hs5 t) scM hsc hc1 hc2 (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    have hc1 : ¬cond1 (grid0.coords t) := fun h => h0 ((hcond1 t).mp h)
    rw [entryAt_pos m c t.val t.isLt h0]
    rw [PhiS_castSucc m c t, PhiS_pos m c _ _ hz]
    by_cases h7 : t.val % 8 = 7
    · have hc2 : cond2 (grid0.coords t) := (hcond2 t).mpr h7
      rw [leaves5_live m c t hc2]
      unfold outAt
      rw [entryAt_pos m c t.val t.isLt h0]
      iintro ⟨⟨HS, Hg⟩, Ho, ⟨%d0, H0⟩, ⟨%d1, H1⟩, ⟨%d2, H2⟩, ⟨%d3, H3⟩, ⟨%d4, H4⟩, ⟨%d5, H5⟩⟩
      iapply (run_C (F := F) c (grid0.coords t) (ms0 t) (hs0 t) (ms1 t) (hs1 t) (ms2 t) (hs2 t) (ms3 t) (hs3 t) (ms4 t) (hs4 t) (ms5 t) (hs5 t) scM hsc hc1 hc2 (iblk m c 0 t) (iblk m c 1 t) (iblk m c 2 t) (iblk m c 3 t) (iblk m c 4 t) (scrAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%f5, H5⟩, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outStore_cover (F := F) c _ _ _ _ _ _ _ _ _ _ _ _ _ _ _ _ _ _ _ _ _)
    · have hc2 : ¬cond2 (grid0.coords t) := fun h => h7 ((hcond2 t).mp h)
      rw [Dat.leavesExact_idle (dats m 0 c) 5 t (idle5 t hc2) (noFlush5 t hc2)]
      iintro ⟨⟨HS, Hg⟩, Ho, ⟨%d0, H0⟩, ⟨%d1, H1⟩, ⟨%d2, H2⟩, ⟨%d3, H3⟩, ⟨%d4, H4⟩, ⟨%d5, H5⟩⟩
      iapply (run_B (F := F) c (grid0.coords t) (ms0 t) (hs0 t) (ms1 t) (hs1 t) (ms2 t) (hs2 t) (ms3 t) (hs3 t) (ms4 t) (hs4 t) (ms5 t) (hs5 t) scM hsc hc1 hc2 (iblk m c 0 t) (iblk m c 1 t) (iblk m c 2 t) (iblk m c 3 t) (scrAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
/-- Every weakly fair execution of the program terminates, and ends with every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.LoopI.lean ====
/-
  The batch loop of the graph-convolution kernel, gone through by its invariant.

  One trip `k` of the loop reads rows of batch `k` of the resident input (through a view of the input
  buffer sliced at batch `k`), reads row-block `k` of the accumulator, and stores the sum of that
  row-block and the trip's product back into row-block `k`.  The invariant before trip `k`: the input
  buffer at its contents `X`, the accumulator at the stores of the trips before `k` written over its
  contents `G` at loop entry — each trip's store taken at the contents the earlier trips left.
-/
import proofs.«139093_j82867099009361_2_alg».proof.Proof.Gen.KernelIdeal.Frame
import proofs.«139093_j82867099009361_2_alg».proof.Proof.Gen.KernelIdeal.Loops

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip's resources: the input buffer at its contents, the accumulator at any. -/
abbrev Trip (c : Dev nD) (arg2 : Memref sig .tc .vmem S16x2048x64 .f32) (arg8 : Memref sig .tc .vmem S16x256x64 .f32)
    (X : BufTy.Contents (Elt F) arg2.view.ty) (f : BufTy.Contents (Elt F) arg8.view.ty) : sProp 𝕄 :=
  iprop((arg2.view.loc (c : Thread nD τ) ↦[arg2.view.set]{fullShare} X) ∗ (arg8.view.loc (c : Thread nD τ) ↦[arg8.view.set]{fullShare} f))

/-- One trip at a symbolic `k`: from the input at `X` and the accumulator at `f`, the region runs to the input at
    `X` and the accumulator at `f` with the trip's store written; the store (its rectangle, row-block `k`, and its
    payload, a function of `X` and `f`) is what the run finds. -/
@[irreducible] def trip (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (v3 : Vec F S256x256 .f32) (v4 : Vec F S256x256 .i32) (v7 : Vec F S64x64 .f32)
    (X : BufTy.Contents (Elt F) arg2.view.ty) (k : Fin k0_t1_loop.trips) :
    { L : (BufTy.Contents (Elt F) arg8.view.ty → List (View.Piece (Elt F) S16x256x64 .f32)) // ∀ (E : Set ℕ) (f : BufTy.Contents (Elt F) arg8.view.ty),
      Trip (F := F) c arg2 arg8 X f
      ⊢ wp frame (wpE (defs₀ (F := F)) Variants.none (c : Thread nD τ) none) E (k0_t1_body (F := F) i arg2 harg2 arg3 harg3 arg4 harg4 arg5 harg5 arg6 harg6 arg7 harg7 arg8 harg8 v3 v4 v7 k PUnit.unit)
          (fun _ => Trip (F := F) c arg2 arg8 X (arg8.view.writes (Elt F) f (L f))) } := by
  refine ⟨?_, fun E f => ?run⟩
  case run =>
    unfold k0_t1_body
    iintro ⟨HR_arg2, HW_arg8⟩
    sl_exec
    sl_step
    sl_close

/-- The trip's store, at the contents the trip finds in the accumulator. -/
abbrev tripL (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (v3 : Vec F S256x256 .f32) (v4 : Vec F S256x256 .i32) (v7 : Vec F S64x64 .f32)
    (X : BufTy.Contents (Elt F) arg2.view.ty) (k : Fin k0_t1_loop.trips) (f : BufTy.Contents (Elt F) arg8.view.ty) : List (View.Piece (Elt F) S16x256x64 .f32) :=
  (trip (F := F) c i arg2 harg2 arg3 harg3 arg4 harg4 arg5 harg5 arg6 harg6 arg7 harg7 arg8 harg8 v3 v4 v7 X k).1 f

/-- Trip `k`'s store in front of the stores before it (taken at the contents those left); past the last trip, nothing more. -/
@[irreducible] def pbStep (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (v3 : Vec F S256x256 .f32) (v4 : Vec F S256x256 .i32) (v7 : Vec F S64x64 .f32)
    (X : BufTy.Contents (Elt F) arg2.view.ty) (G : BufTy.Contents (Elt F) arg8.view.ty) (k : ℕ) (prev : List (View.Piece (Elt F) S16x256x64 .f32)) : List (View.Piece (Elt F) S16x256x64 .f32) :=
  if h : k < k0_t1_loop.trips then
    (tripL (F := F) c i arg2 harg2 arg3 harg3 arg4 harg4 arg5 harg5 arg6 harg6 arg7 harg7 arg8 harg8 v3 v4 v7 X ⟨k, h⟩ (arg8.view.writes (Elt F) G prev)) ++ prev
  else prev

/-- The stores of the trips before `k`, last first, over the accumulator's contents `G` at loop entry. -/
def pb (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (v3 : Vec F S256x256 .f32) (v4 : Vec F S256x256 .i32) (v7 : Vec F S64x64 .f32)
    (X : BufTy.Contents (Elt F) arg2.view.ty) (G : BufTy.Contents (Elt F) arg8.view.ty) : ℕ → List (View.Piece (Elt F) S16x256x64 .f32)
  | 0 => []
  | k + 1 => pbStep c i arg2 harg2 arg3 harg3 arg4 harg4 arg5 harg5 arg6 harg6 arg7 harg7 arg8 harg8 v3 v4 v7 X G k (pb c i arg2 harg2 arg3 harg3 arg4 harg4 arg5 harg5 arg6 harg6 arg7 harg7 arg8 harg8 v3 v4 v7 X G k)

theorem pb_succ (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (v3 : Vec F S256x256 .f32) (v4 : Vec F S256x256 .i32) (v7 : Vec F S64x64 .f32)
    (X : BufTy.Contents (Elt F) arg2.view.ty) (G : BufTy.Contents (Elt F) arg8.view.ty) (k : Fin k0_t1_loop.trips) :
    pb (F := F) c i arg2 harg2 arg3 harg3 arg4 harg4 arg5 harg5 arg6 harg6 arg7 harg7 arg8 harg8 v3 v4 v7 X G (k.val + 1)
      = (tripL (F := F) c i arg2 harg2 arg3 harg3 arg4 harg4 arg5 harg5 arg6 harg6 arg7 harg7 arg8 harg8 v3 v4 v7 X k (arg8.view.writes (Elt F) G (pb (F := F) c i arg2 harg2 arg3 harg3 arg4 harg4 arg5 harg5 arg6 harg6 arg7 harg7 arg8 harg8 v3 v4 v7 X G k.val))) ++ (pb (F := F) c i arg2 harg2 arg3 harg3 arg4 harg4 arg5 harg5 arg6 harg6 arg7 harg7 arg8 harg8 v3 v4 v7 X G k.val) := by
  rw [pb.eq_2]; unfold pbStep; exact dif_pos k.isLt

/-- The invariant before trip `k`. -/
abbrev inv (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (v3 : Vec F S256x256 .f32) (v4 : Vec F S256x256 .i32) (v7 : Vec F S64x64 .f32)
    (X : BufTy.Contents (Elt F) arg2.view.ty) (G : BufTy.Contents (Elt F) arg8.view.ty) (k : ℕ) (_u : PUnit) : sProp 𝕄 :=
  iprop((arg2.view.loc (c : Thread nD τ) ↦[arg2.view.set]{fullShare} X) ∗ (∃ f, (arg8.view.loc (c : Thread nD τ) ↦[arg8.view.set]{fullShare} f) ∗ ⌜f = arg8.view.writes (Elt F) G (pb (F := F) c i arg2 harg2 arg3 harg3 arg4 harg4 arg5 harg5 arg6 harg6 arg7 harg7 arg8 harg8 v3 v4 v7 X G k)⌝))

set_option warn.classDefReducibility false in
/-- The loop by its invariant: one trip takes the invariant at `k` to the invariant at `k + 1`. -/
@[sl_loop] def loopInv (c : Dev nD) (E : Set ℕ) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (v3 : Vec F S256x256 .f32) (v4 : Vec F S256x256 .i32) (v7 : Vec F S64x64 .f32)
    (X : BufTy.Contents (Elt F) arg2.view.ty) (G : BufTy.Contents (Elt F) arg8.view.ty) :
    LoopInvTy_k0_t1 (F := F) Unit ℕ (UR sig nD τ) ℕ Variants.none c none E i arg2 harg2 arg3 harg3 arg4 harg4 arg5 harg5 arg6 harg6 arg7 harg7 arg8 harg8 v3 v4 v7 where
  inv := inv (F := F) c i arg2 harg2 arg3 harg3 arg4 harg4 arg5 harg5 arg6 harg6 arg7 harg7 arg8 harg8 v3 v4 v7 X G
  step k acc := by
    iintro ⟨HR, ⟨%f, HW, %hf⟩⟩
    iapply (wp_wand_r Idealize.ShloMosaic.frame (wpE (defs₀ (F := F)) Variants.none (c : Thread nD τ) none) E)
    isplitl [HR HW]
    · iapply ((trip (F := F) c i arg2 harg2 arg3 harg3 arg4 harg4 arg5 harg5 arg6 harg6 arg7 harg7 arg8 harg8 v3 v4 v7 X k).2 E f)
      isplitl [HR]; · iexact HR
      iexact HW
    · iintro %_ ⟨HR, HW⟩
      isplitl [HR]; · iexact HR
      rw [pb_succ]
      iexists _; isplitl [HW]; · iexact HW
      ipureintro; rw [hf, ← View.writes_append]

end Cert.KernelIdeal.Hand

end
-- ==== Proof.BodyI.lean ====
/-
  The graph-convolution kernel's body at every grid point, and the program's frame.

  The grid is 8 × 8: the first coordinate `qi` picks a block of 256 query rows, the second `ki` a tile of 256 key
  columns.  At each point the body multiplies the attention tile by the mask tile, and for each of the sixteen batches
  adds the tile's contribution to row-block `b` of an accumulator the kernel keeps between points; the accumulator is
  zeroed first where `ki = 0`, and where `ki = 7` the accumulator plus the bias row is stored into the output block.
  So there are three runs of the body (`run_A`: zero and accumulate; `run_B`: accumulate; `run_C`: accumulate and
  store), what the accumulator holds after each point is defined by recursion on the point (`scrAt`), and the region's
  invariant between points is the accumulator at those contents.
-/
import proofs.«139093_j82867099009361_2_alg».proof.Proof.Gen.KernelIdeal.Frame
import proofs.«139093_j82867099009361_2_alg».proof.Proof.Gen.KernelIdeal.Loops
import proofs.«139093_j82867099009361_2_alg».proof.Proof.LoopI
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The condition of the body's first conditional (the accumulator is zeroed): the second grid coordinate is 0. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 8 = 0 :=
  (by decide +kernel : ∀ t : Fin grid0.N, cond1 (grid0.coords t) ↔ t.val % 8 = 0)
/-- The condition of the body's second conditional (the output block is stored): the second grid coordinate is 7. -/
abbrev cond2 (i : grid0.Coords) : Prop := k0_cond2 i = 1#1
theorem hcond2 : ∀ t : Fin cfg0.N, cond2 (grid0.coords t) ↔ t.val % 8 = 7 :=
  (by decide +kernel : ∀ t : Fin grid0.N, cond2 (grid0.coords t) ↔ t.val % 8 = 7)

/-- The accumulator after the sixteen trips, from its contents `G` at loop entry: the trips' stores written over `G`.
    The three values the trips share are read before the loop: the attention tile, the mask tile and the weight matrix. -/
def loopOut (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (x0 : Vec F S16x2048x64 .f32) (x1 : Vec F S64x64 .f32) (x2 : Vec F S256x256 .f32) (x3 : Vec F S256x256 .i32) (G : BufTy.Contents (Elt F) arg8.view.ty) : BufTy.Contents (Elt F) arg8.view.ty :=
  arg8.view.writes (Elt F) G (pb (F := F) c i arg2 harg2 arg3 harg3 arg4 harg4 arg5 harg5 arg6 harg6 arg7 harg7 arg8 harg8 (View.readAt (Elt F) arg4.view (Rect.unit (s := S256x256) ![0, 0] S256x256.size inb_S256x256_S256x256_0_0).toLoadRect (harg4.unread x2)) (View.readAt (Elt F) arg5.view (Rect.unit (s := S256x256) ![0, 0] S256x256.size inb_S256x256_S256x256_0_0).toLoadRect (harg5.unread x3)) (View.readAt (Elt F) arg3.view (Rect.unit (s := S64x64) ![0, 0] S64x64.size inb_S64x64_S64x64_0_0).toLoadRect (harg3.unread x1)) (harg2.unread x0) G k0_t1_loop.trips)

/-- The zero fill of the whole accumulator, as a store. -/
def zeroFill : List (View.Piece (Elt F) S16x256x64 .f32) :=
  [⟨Rect.unit (s := S16x256x64) ![0, 0, 0] S16x256x64.size inb_S16x256x64_S16x256x64_0_0_0, k0_pay1 (F := F)⟩]

/-- The accumulator zeroed: the zero fill over arbitrary contents. -/
def zeroed (arg8 : Memref sig .tc .vmem S16x256x64 .f32) : BufTy.Contents (Elt F) arg8.view.ty :=
  arg8.view.writes (Elt F) arg8.view.junk (zeroFill (F := F))

/-- The output block's one store: the accumulator after the trips plus the bias row, over the whole block. -/
def outStore (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (x0 : Vec F S16x2048x64 .f32) (x1 : Vec F S64x64 .f32) (x2 : Vec F S256x256 .f32) (x3 : Vec F S256x256 .i32) (x4 : Vec F S1x1x64 .f32) (G : BufTy.Contents (Elt F) arg8.view.ty) : List (View.Piece (Elt F) S16x256x64 .f32) :=
  [⟨Rect.unit (s := S16x256x64) ![0, 0, 0] S16x256x64.size inb_S16x256x64_S16x256x64_0_0_0,
    k0_pay3 (View.readAt (Elt F) arg8.view (Rect.unit (s := S16x256x64) ![0, 0, 0] S16x256x64.size inb_S16x256x64_S16x256x64_0_0_0).toLoadRect (loopOut (F := F) c i arg2 harg2 arg3 harg3 arg4 harg4 arg5 harg5 arg6 harg6 arg7 harg7 arg8 harg8 x0 x1 x2 x3 G))
      (View.readAt (Elt F) arg6.view (Rect.unit (s := S1x1x64) ![0, 0, 0] S1x1x64.size inb_S1x1x64_S1x1x64_0_0_0).toLoadRect (harg6.unread x4))⟩]

set_option maxHeartbeats 2000000 in
/-- At a point that neither zeroes the accumulator nor stores the output: the loop alone, on the accumulator as the
    point before left it. -/
theorem run_B (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (hc1 : ¬cond1 i) (hc2 : ¬cond2 i) (x0 : Vec F S16x2048x64 .f32) (x1 : Vec F S64x64 .f32) (x2 : Vec F S256x256 .f32) (x3 : Vec F S256x256 .i32) (xs : Vec F S16x256x64 .f32) (E : Set ℕ) (K : PUnit → sProp 𝕄) :
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare xs
          ∗ (iprop(owns (c : Thread nD τ) arg2 fullShare x0 ∗ owns (c : Thread nD τ) arg3 fullShare x1 ∗ owns (c : Thread nD τ) arg4 fullShare x2 ∗ owns (c : Thread nD τ) arg5 fullShare x3
              ∗ (arg8.view.loc (c : Thread nD τ) ↦[arg8.view.set]{fullShare} loopOut (F := F) c i arg2 harg2 arg3 harg3 arg4 harg4 arg5 harg5 arg6 harg6 arg7 harg7 arg8 harg8 x0 x1 x2 x3 (harg8.unread xs))) -∗ K ⟨⟩))
        ⊢ wp frame (wpE (defs₀ (F := F)) Variants.none c none) E (cc0__gconv_kernel i arg2 harg2 arg3 harg3 arg4 harg4 arg5 harg5 arg6 harg6 arg7 harg7 arg8 harg8) K := by
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg8.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    unfold loopOut
    iexact HS

set_option maxHeartbeats 2000000 in
/-- At a point that zeroes the accumulator: the zero fill, then the loop. -/
theorem run_A (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (hc1 : cond1 i) (hc2 : ¬cond2 i) (x0 : Vec F S16x2048x64 .f32) (x1 : Vec F S64x64 .f32) (x2 : Vec F S256x256 .f32) (x3 : Vec F S256x256 .i32) (E : Set ℕ) (K : PUnit → sProp 𝕄) :
      iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg8 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3
              ∗ (arg8.view.loc (c : Thread nD τ) ↦[arg8.view.set]{fullShare} loopOut (F := F) c i arg2 harg2 arg3 harg3 arg4 harg4 arg5 harg5 arg6 harg6 arg7 harg7 arg8 harg8 x0 x1 x2 x3 (zeroed (F := F) arg8))) -∗ K ⟨⟩))
        ⊢ wp frame (wpE (defs₀ (F := F)) Variants.none c none) E (cc0__gconv_kernel i arg2 harg2 arg3 harg3 arg4 harg4 arg5 harg5 arg6 harg6 arg7 harg7 arg8 harg8) K := by
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%d, %fs, %hfs, HS⟩, Hk⟩
    obtain rfl := harg2.eq_unread hf0; obtain rfl := harg3.eq_unread hf1; obtain rfl := harg4.eq_unread hf2; obtain rfl := harg5.eq_unread hf3; obtain rfl := harg8.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    unfold loopOut zeroed
    rw [← View.writes_append]
    iexact HS

set_option maxHeartbeats 2000000 in
/-- At a point that stores the output: the loop, then the accumulator plus the bias row stored over the whole block. -/
theorem run_C (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (hc1 : ¬cond1 i) (hc2 : cond2 i) (x0 : Vec F S16x2048x64 .f32) (x1 : Vec F S64x64 .f32) (x2 : Vec F S256x256 .f32) (x3 : Vec F S256x256 .i32) (x4 : Vec F S1x1x64 .f32) (xs : Vec F S16x256x64 .f32) (E : Set ℕ) (K : PUnit → sProp 𝕄) :
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
              ∗ (∃ f, arg7.view.loc (c : Thread nD τ) ↦[arg7.view.set]{fullShare} arg7.view.writes (Elt F) f (outStore (F := F) c i arg2 harg2 arg3 harg3 arg4 harg4 arg5 harg5 arg6 harg6 arg7 harg7 arg8 harg8 x0 x1 x2 x3 x4 (harg8.unread xs)))
              ∗ (arg8.view.loc (c : Thread nD τ) ↦[arg8.view.set]{fullShare} loopOut (F := F) c i arg2 harg2 arg3 harg3 arg4 harg4 arg5 harg5 arg6 harg6 arg7 harg7 arg8 harg8 x0 x1 x2 x3 (harg8.unread xs))) -∗ K ⟨⟩))
        ⊢ wp frame (wpE (defs₀ (F := F)) Variants.none c none) E (cc0__gconv_kernel i arg2 harg2 arg3 harg3 arg4 harg4 arg5 harg5 arg6 harg6 arg7 harg7 arg8 harg8) K := by
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; unfold outStore loopOut; iexact H5
    unfold loopOut
    iexact HS

variable (m : (ℓ : Loc nD τ sig) → Buf (Elt F) ℓ) (ρ : Dev nD → PrngReg)

/-! ## The memrefs the body is called with at a point -/

abbrev ms0 (t : Fin cfg0.N) : Memref sig .tc .vmem S16x2048x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x256x64 .f32 := win0_5.stage (cfg0.slots t 5)
abbrev hs5 (t : Fin cfg0.N) : (ms5 t).IsWhole := hstage0_5 ((cfg0.slots t 5).cast nbuf0_5)
/-- The accumulator: the kernel's own scratch buffer, whole. -/
abbrev scM : Memref sig .tc .vmem S16x256x64 .f32 := Memref.whole cc0_scratch0
abbrev hsc : (scM).IsWhole := Memref.isWhole_whole _

/-- What the launch hands the region: the accumulator at some contents and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The output window is idle wherever the body does not store it, and is not written back there; -/
theorem idle5 : ∀ t : Fin cfg0.N, ¬cond2 (grid0.coords t) → cfg0.idle 5 (grid0.coords t) = true := by decide +kernel
theorem noFlush5 : ∀ t : Fin cfg0.N, ¬cond2 (grid0.coords t) → (cfg0.win 5).flush t = false := by decide +kernel
/-- it is live where the body stores it. -/
theorem live5 : ∀ t : Fin cfg0.N, cond2 (grid0.coords t) → cfg0.idle 5 (grid0.coords t) = false := by decide +kernel

/-! ## What the accumulator and the output block hold, point by point -/

/-- The accumulator after point `t`, from its contents `G` when the point's loop is entered. -/
def sNext (c : Dev nD) (t : Fin cfg0.N) (G : BufTy.Contents (Elt F) (scM).view.ty) : Vec F S16x256x64 .f32 :=
  (scM).view.read (Elt F) (loopOut (F := F) c (grid0.coords t) (ms0 t) (hs0 t) (ms1 t) (hs1 t) (ms2 t) (hs2 t) (ms3 t) (hs3 t) (ms4 t) (hs4 t) (ms5 t) (hs5 t) scM hsc (iblk m c 0 t) (iblk m c 1 t) (iblk m c 2 t) (iblk m c 3 t) G)

/-- The accumulator after point `n`: the point's loop run from the zeroed accumulator where the second grid coordinate
    is 0, else from what the point before left. -/
def scrAt (c : Dev nD) : (n : ℕ) → n < cfg0.N → Vec F S16x256x64 .f32
  | 0, h => sNext m c ⟨0, h⟩ (zeroed (F := F) scM)
  | n + 1, h => sNext m c ⟨n + 1, h⟩ (if (n + 1) % 8 = 0 then zeroed (F := F) scM else (hsc).unread (scrAt c n (Nat.lt_of_succ_lt h)))

/-- The accumulator's contents when point `n`'s loop is entered. -/
def entryAt (c : Dev nD) : (n : ℕ) → n < cfg0.N → BufTy.Contents (Elt F) (scM).view.ty
  | 0, _ => zeroed (F := F) scM
  | n + 1, h => if (n + 1) % 8 = 0 then zeroed (F := F) scM else (hsc).unread (scrAt m c n (Nat.lt_of_succ_lt h))

theorem scrAt_eq (c : Dev nD) (n : ℕ) (h : n < cfg0.N) : scrAt m c n h = sNext m c ⟨n, h⟩ (entryAt m c n h) := by
  cases n with
  | zero => rfl
  | succ n => rfl

theorem entryAt_zero (c : Dev nD) (n : ℕ) (h : n < cfg0.N) (h0 : n % 8 = 0) : entryAt m c n h = zeroed (F := F) scM := by
  cases n with
  | zero => rfl
  | succ n => exact if_pos h0

theorem entryAt_pos (c : Dev nD) (n : ℕ) (h : n < cfg0.N) (h0 : ¬ n % 8 = 0) :
    entryAt m c n h = (hsc).unread (scrAt m c (n - 1) (Nat.lt_of_le_of_lt (Nat.sub_le _ _) h)) := by
  cases n with
  | zero => exact absurd (Nat.zero_mod _) h0
  | succ n => exact if_neg h0

/-- The output block after point `t` (consulted where the body stores it): the one whole-block store read back. -/
def outAt (c : Dev nD) (t : Fin cfg0.N) : Vec F S16x256x64 .f32 :=
  (ms5 t).view.read (Elt F) ((ms5 t).view.writes (Elt F) (ms5 t).view.junk
    (outStore (F := F) c (grid0.coords t) (ms0 t) (hs0 t) (ms1 t) (hs1 t) (ms2 t) (hs2 t) (ms3 t) (hs3 t) (ms4 t) (hs4 t) (ms5 t) (hs5 t) scM hsc (iblk m c 0 t) (iblk m c 1 t) (iblk m c 2 t) (iblk m c 3 t) (iblk m c 4 t) (entryAt m c t.val t.isLt)))

/-- The one store of the output block covers it. -/
theorem outStore_cover (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (x0 : Vec F S16x2048x64 .f32) (x1 : Vec F S64x64 .f32) (x2 : Vec F S256x256 .f32) (x3 : Vec F S256x256 .i32) (x4 : Vec F S1x1x64 .f32) (G : BufTy.Contents (Elt F) arg8.view.ty) (y : S16x256x64.Idx) :
    ∃ pc ∈ outStore (F := F) c i arg2 harg2 arg3 harg3 arg4 harg4 arg5 harg5 arg6 harg6 arg7 harg7 arg8 harg8 x0 x1 x2 x3 x4 G, y ∈ pc.1.set :=
  View.cover_of_tiledL (outStore (F := F) c i arg2 harg2 arg3 harg3 arg4 harg4 arg5 harg5 arg6 harg6 arg7 harg7 arg8 harg8 x0 x1 x2 x3 x4 G) S16x256x64.size (by sl_kernel_rfl) y

/-- The region invariant before position `n`: before the first point what the launch hands over; afterwards the
    accumulator at what the point before left and the generator register at some state. -/
def PhiS (c : Dev nD) : (n : ℕ) → n ≤ cfg0.N → sProp 𝕄
  | 0, _ => Pipeline.ΦA spec0 c
  | n + 1, hn => iprop(iprop(owns (c : Thread nD τ) scM fullShare (scrAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (scrAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (scrAt m c (n - 1) (by omega))) ∗ (∃ r, prngReg c r)) := by
  cases n with
  | zero => exact absurd rfl hz
  | succ n => rfl

/-! ## The proof data -/

/-- The proof data of the one pipeline on core `c`: the arrays as the region finds them; after the body each input's buffer
    at its block, the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5_live (c : Dev nD) (t : Fin cfg0.N) (h : cond2 (grid0.coords t)) : (dats m 0 c).leavesExact 5 t = owns (c : Thread nD τ) (ms5 t) fullShare (outAt m c t) := by
  unfold Dat.leavesExact; rw [live5 t h, after5]

set_option maxHeartbeats 4800000 in
/-- The body at any point: the inputs' memrefs hold their blocks; the second grid coordinate says which of the three
    runs applies; the invariant hands the body the accumulator (at anything where it is zeroed first, else at what the
    point before left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, scrAt_eq]
  have hN : t.val < 64 := lt_of_lt_of_eq t.isLt (show cfg0.N = 64 from N_0)
  by_cases h0 : t.val % 8 = 0
  · have hc1 : cond1 (grid0.coords t) := (hcond1 t).mpr h0
    have hc2 : ¬cond2 (grid0.coords t) := fun h => by have := (hcond2 t).mp h; omega
    rw [Dat.leavesExact_idle (dats m 0 c) 5 t (idle5 t hc2) (noFlush5 t hc2)]
    rw [entryAt_zero m c t.val t.isLt h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply (run_A (F := F) c (grid0.coords t) (ms0 t) (hs0 t) (ms1 t) (hs1 t) (ms2 t) (hs2 t) (ms3 t) (hs3 t) (ms4 t) (hs4 t) (ms5 t) (hs5 t) scM hsc hc1 hc2 (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (run_A (F := F) c (grid0.coords t) (ms0 t) (hs0 t) (ms1 t) (hs1 t) (ms2 t) (hs2 t) (ms3 t) (hs3 t) (ms4 t) (hs4 t) (ms5 t) (hs5 t) scM hsc hc1 hc2 (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    have hc1 : ¬cond1 (grid0.coords t) := fun h => h0 ((hcond1 t).mp h)
    rw [entryAt_pos m c t.val t.isLt h0]
    rw [PhiS_castSucc m c t, PhiS_pos m c _ _ hz]
    by_cases h7 : t.val % 8 = 7
    · have hc2 : cond2 (grid0.coords t) := (hcond2 t).mpr h7
      rw [leaves5_live m c t hc2]
      unfold outAt
      rw [entryAt_pos m c t.val t.isLt h0]
      iintro ⟨⟨HS, Hg⟩, Ho, ⟨%d0, H0⟩, ⟨%d1, H1⟩, ⟨%d2, H2⟩, ⟨%d3, H3⟩, ⟨%d4, H4⟩, ⟨%d5, H5⟩⟩
      iapply (run_C (F := F) c (grid0.coords t) (ms0 t) (hs0 t) (ms1 t) (hs1 t) (ms2 t) (hs2 t) (ms3 t) (hs3 t) (ms4 t) (hs4 t) (ms5 t) (hs5 t) scM hsc hc1 hc2 (iblk m c 0 t) (iblk m c 1 t) (iblk m c 2 t) (iblk m c 3 t) (iblk m c 4 t) (scrAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%f5, H5⟩, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outStore_cover (F := F) c _ _ _ _ _ _ _ _ _ _ _ _ _ _ _ _ _ _ _ _ _)
    · have hc2 : ¬cond2 (grid0.coords t) := fun h => h7 ((hcond2 t).mp h)
      rw [Dat.leavesExact_idle (dats m 0 c) 5 t (idle5 t hc2) (noFlush5 t hc2)]
      iintro ⟨⟨HS, Hg⟩, Ho, ⟨%d0, H0⟩, ⟨%d1, H1⟩, ⟨%d2, H2⟩, ⟨%d3, H3⟩, ⟨%d4, H4⟩, ⟨%d5, H5⟩⟩
      iapply (run_B (F := F) c (grid0.coords t) (ms0 t) (hs0 t) (ms1 t) (hs1 t) (ms2 t) (hs2 t) (ms3 t) (hs3 t) (ms4 t) (hs4 t) (ms5 t) (hs5 t) scM hsc hc1 hc2 (iblk m c 0 t) (iblk m c 1 t) (iblk m c 2 t) (iblk m c 3 t) (scrAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]
        · unfold owns; iexists _; isplitr
          swap; · iexact HS
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
/-- Every weakly fair execution of the program terminates, and ends with every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.LoopValI.lean ====
/-
  The value of the batch loop. Trip `k` of the loop touches only row-block `k` of the accumulator: it
  reads rows `256 (i 0) + r` and `256 (i 1) + r` of batch `k` of the input, reads row-block `k` of the
  accumulator, and stores the payload of these three back into row-block `k`. By induction on the number
  of trips done, before trip `k` the accumulator at `(b, p, q)` is the payload of trip `b` at `(0, p, q)`
  when `b < k`, and its contents at loop entry otherwise; the row-block a trip finds is the one at loop
  entry, since no earlier trip wrote there. After all sixteen trips every row-block holds its trip's payload.
-/
import proofs.«139093_j82867099009361_2_alg».proof.Proof.LoopI
import Idealize.ShloMosaic.Lib.ValueIdx
import Idealize.ShloMosaic.Lib.WritesUnit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

theorem trips_eq : k0_t1_loop.trips = 16 := by decide

theorem off4_eq : ∀ k : Fin k0_t1_loop.trips, k0_off4 k = ![k.val, 0, 0] := by decide +kernel
theorem off1_eq : ∀ k : Fin k0_t1_loop.trips, k0_off1 k = ![k.val, 0, 0] := by decide +kernel
theorem off2_eq : ∀ i : grid0.Coords, k0_off2 i = ![(i 0).val * 256, 0] := by decide +kernel
theorem off3_eq : ∀ i : grid0.Coords, k0_off3 i = ![(i 1).val * 256, 0] := by decide +kernel

/-- The one store of trip `k`: row-block `k` of the accumulator, the payload at the rows the trip reads and the
    row-block it finds. -/
theorem tripL_eq (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (v3 : Vec F S256x256 .f32) (v4 : Vec F S256x256 .i32) (v7 : Vec F S64x64 .f32)
    (X : BufTy.Contents (Elt F) arg2.view.ty) (k : Fin k0_t1_loop.trips) (f : BufTy.Contents (Elt F) arg8.view.ty) :
    tripL (F := F) c i arg2 harg2 arg3 harg3 arg4 harg4 arg5 harg5 arg6 harg6 arg7 harg7 arg8 harg8 v3 v4 v7 X k f
      = [⟨Rect.unit (s := S16x256x64) (k0_off4 k) S1x256x64.size (k0_off4_inb k),
          k0_pay2 v3 v4 v7 (trip.sl.v20 i arg2 X k) (trip.sl.v24 i arg2 X k)
            (View.readAt (Elt F) arg8.view (Rect.unit (s := S16x256x64) (k0_off4 k) S1x256x64.size (k0_off4_inb k)).toLoadRect f)⟩] := by
  unfold tripL trip
  rfl

/-- Rows `256 o + r`, `r < 256`, of batch `b`. -/
def rowsAt (x0 : Vec F S16x2048x64 .f32) (b : Fin 16) (o : Fin 8) : Vec F S256x64 .f32 :=
  fun y => x0 (ix3 b ⟨o.val * 256 + (y 0).val, by have := o.isLt; have := idx2_lt0 y; omega⟩ (y 1))

theorem hc_sq (k : Fin k0_t1_loop.trips) : (Rect.unit (s := S16x2048x64) (k0_off1 k) S1x2048x64.size (k0_off1_inb k)).shape.ShapeCasts S2048x64 :=
  (by decide : S1x2048x64.ShapeCasts S2048x64)

/-- The first load of trip `k`: rows `256 (i 0) + r` of batch `k`. -/
theorem v20_eq (i : grid0.Coords) (arg2 : Memref sig .tc .vmem S16x2048x64 .f32) (harg2 : arg2.IsWhole)
    (x0 : Vec F S16x2048x64 .f32) (k : Fin k0_t1_loop.trips) :
    trip.sl.v20 (F := F) i arg2 (harg2.unread x0) k = rowsAt x0 ⟨k.val, trips_eq ▸ k.isLt⟩ (i 0) := by
  funext y
  unfold trip.sl.v20
  rw [View.readAt_apply]
  refine (congrFun (Memref.read_squeeze_slice arg2 _ _ _ (hc_sq k) (harg2.unread x0)) _).trans ?_
  refine (shapeCast_dropUnit_apply ![2048, 64] _ (hc_sq k) _).trans ?_
  rw [View.readAt_apply, harg2.read_unread]
  unfold rowsAt
  refine congrArg x0 (funext fun a => Fin.ext ?_)
  have h1 := off1_eq k
  have h20 : k0_off2 i 0 = (i 0).val * 256 := congrFun (off2_eq i) 0
  have h21 : k0_off2 i 1 = 0 := congrFun (off2_eq i) 1
  match a with
  | ⟨0, _⟩ =>
    show k0_off1 k 0 + 1 * 0 = k.val
    rw [h1]; rfl
  | ⟨1, _⟩ =>
    show k0_off1 k 1 + 1 * (k0_off2 i 0 + 1 * (y 0).val) = (i 0).val * 256 + (y 0).val
    rw [h1, h20]
    show 0 + 1 * ((i 0).val * 256 + 1 * (y 0).val) = (i 0).val * 256 + (y 0).val
    omega
  | ⟨2, _⟩ =>
    show k0_off1 k 2 + 1 * (k0_off2 i 1 + 1 * (y 1).val) = (y 1).val
    rw [h1, h21]
    show 0 + 1 * (0 + 1 * (y 1).val) = (y 1).val
    omega

/-- The second load of trip `k`: rows `256 (i 1) + r` of batch `k`. -/
theorem v24_eq (i : grid0.Coords) (arg2 : Memref sig .tc .vmem S16x2048x64 .f32) (harg2 : arg2.IsWhole)
    (x0 : Vec F S16x2048x64 .f32) (k : Fin k0_t1_loop.trips) :
    trip.sl.v24 (F := F) i arg2 (harg2.unread x0) k = rowsAt x0 ⟨k.val, trips_eq ▸ k.isLt⟩ (i 1) := by
  funext y
  unfold trip.sl.v24
  rw [View.readAt_apply]
  refine (congrFun (Memref.read_squeeze_slice arg2 _ _ _ (hc_sq k) (harg2.unread x0)) _).trans ?_
  refine (shapeCast_dropUnit_apply ![2048, 64] _ (hc_sq k) _).trans ?_
  rw [View.readAt_apply, harg2.read_unread]
  unfold rowsAt
  refine congrArg x0 (funext fun a => Fin.ext ?_)
  have h1 := off1_eq k
  have h30 : k0_off3 i 0 = (i 1).val * 256 := congrFun (off3_eq i) 0
  have h31 : k0_off3 i 1 = 0 := congrFun (off3_eq i) 1
  match a with
  | ⟨0, _⟩ =>
    show k0_off1 k 0 + 1 * 0 = k.val
    rw [h1]; rfl
  | ⟨1, _⟩ =>
    show k0_off1 k 1 + 1 * (k0_off3 i 0 + 1 * (y 0).val) = (i 1).val * 256 + (y 0).val
    rw [h1, h30]
    show 0 + 1 * ((i 1).val * 256 + 1 * (y 0).val) = (i 1).val * 256 + (y 0).val
    omega
  | ⟨2, _⟩ =>
    show k0_off1 k 2 + 1 * (k0_off3 i 1 + 1 * (y 1).val) = (y 1).val
    rw [h1, h31]
    show 0 + 1 * (0 + 1 * (y 1).val) = (y 1).val
    omega

/-- Row-block `k` of the accumulator, read at `(0, r, e)`, is the accumulator at `(k, r, e)`. -/
theorem readAt_block (arg8 : Memref sig .tc .vmem S16x256x64 .f32) (k : Fin k0_t1_loop.trips)
    (f : BufTy.Contents (Elt F) arg8.view.ty) (y : S1x256x64.Idx) :
    View.readAt (Elt F) arg8.view (Rect.unit (s := S16x256x64) (k0_off4 k) S1x256x64.size (k0_off4_inb k)).toLoadRect f y
      = arg8.view.read (Elt F) f (ix3 ⟨k.val, trips_eq ▸ k.isLt⟩ (y 1) (y 2)) := by
  rw [View.readAt_apply]
  refine congrArg _ (funext fun a => Fin.ext ?_)
  have h4 := off4_eq k
  have y0 : (y 0).val = 0 := by have := (y 0).isLt; change (y 0).val < 1 at this; omega
  match a with
  | ⟨0, _⟩ =>
    show k0_off4 k 0 + 1 * (y 0).val = k.val
    rw [h4, y0]; rfl
  | ⟨1, _⟩ =>
    show k0_off4 k 1 + 1 * (y 1).val = (y 1).val
    rw [h4]; simp
  | ⟨2, _⟩ =>
    show k0_off4 k 2 + 1 * (y 2).val = (y 2).val
    rw [h4]; simp

/-- The payload of the trip of batch `b`, at the rows of `x0` the trip reads and row-block `b` of the contents `R`. -/
def payAt (i : grid0.Coords) (v3 : Vec F S256x256 .f32) (v4 : Vec F S256x256 .i32) (v7 : Vec F S64x64 .f32)
    (x0 : Vec F S16x2048x64 .f32) (R : S16x256x64.Idx → Elt F .f32) (b : Fin 16) : FVec F S1x256x64 .f32 :=
  k0_pay2 v3 v4 v7 (rowsAt x0 b (i 0)) (rowsAt x0 b (i 1)) (fun y => R (ix3 b (y 1) (y 2)))

/-- After the trips before `k`, row-block `b` of the accumulator is the payload of trip `b` if `b < k` (taken at the
    loop-entry contents of that row-block, which no earlier trip touched) and the loop-entry contents otherwise. -/
theorem read_pb (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (v3 : Vec F S256x256 .f32) (v4 : Vec F S256x256 .i32) (v7 : Vec F S64x64 .f32)
    (x0 : Vec F S16x2048x64 .f32) (G : BufTy.Contents (Elt F) arg8.view.ty) :
    ∀ (k : ℕ), k ≤ 16 → ∀ (b : Fin 16) (p : Fin 256) (q : Fin 64),
      arg8.view.read (Elt F) (arg8.view.writes (Elt F) G (pb (F := F) c i arg2 harg2 arg3 harg3 arg4 harg4 arg5 harg5 arg6 harg6 arg7 harg7 arg8 harg8 v3 v4 v7 (harg2.unread x0) G k)) (ix3 b p q)
        = if b.val < k then payAt i v3 v4 v7 x0 (arg8.view.read (Elt F) G) b (ix3 (0 : Fin 1) p q)
          else arg8.view.read (Elt F) G (ix3 b p q) := by
  intro k
  induction k with
  | zero =>
    intro _ b p q
    rw [if_neg (Nat.not_lt_zero _)]
    rfl
  | succ k ih =>
    intro hk b p q
    have hk' : k < k0_t1_loop.trips := by rw [trips_eq]; omega
    have hpb := pb_succ (F := F) c i arg2 harg2 arg3 harg3 arg4 harg4 arg5 harg5 arg6 harg6 arg7 harg7 arg8 harg8 v3 v4 v7 (harg2.unread x0) G ⟨k, hk'⟩
    rw [tripL_eq, List.singleton_append] at hpb
    simp only [Fin.val_mk] at hpb
    rw [hpb]
    have hk16 : k < 16 := by omega
    by_cases hb : b.val = k
    · have hbk : b = ⟨k, hk16⟩ := Fin.ext hb
      subst hbk
      rw [if_pos (Nat.lt_succ_self k)]
      refine (View.read_writes_cons_unit_of_mem arg8.view G (k0_off4_inb ⟨k, hk'⟩) _ _ (ix3 (⟨k, hk16⟩ : Fin 16) p q)
        (ix3 (0 : Fin 1) p q) (off4_eq ⟨k, hk'⟩) ?_).trans ?_
      · intro a
        match a with
        | ⟨0, _⟩ => show k = k + 0; omega
        | ⟨1, _⟩ => show p.val = 0 + p.val; omega
        | ⟨2, _⟩ => show q.val = 0 + q.val; omega
      · have hR : View.readAt (Elt F) arg8.view
            (Rect.unit (s := S16x256x64) (k0_off4 ⟨k, hk'⟩) S1x256x64.size (k0_off4_inb ⟨k, hk'⟩)).toLoadRect
            (arg8.view.writes (Elt F) G (pb (F := F) c i arg2 harg2 arg3 harg3 arg4 harg4 arg5 harg5 arg6 harg6 arg7 harg7 arg8 harg8 v3 v4 v7 (harg2.unread x0) G k))
              = fun y => arg8.view.read (Elt F) G (ix3 (⟨k, hk16⟩ : Fin 16) (y 1) (y 2)) := by
          funext y
          refine (readAt_block arg8 ⟨k, hk'⟩ _ y).trans ?_
          refine (ih (by omega) ⟨k, hk16⟩ (y 1) (y 2)).trans ?_
          exact if_neg (Nat.lt_irrefl k)
        rw [v20_eq, v24_eq, hR]
        rfl
    · have hne : (ix3 b p q (0 : Fin 3)).val < (![k, 0, 0] : Fin 3 → ℕ) 0
          ∨ (![k, 0, 0] : Fin 3 → ℕ) 0 + S1x256x64.size 0 ≤ (ix3 b p q (0 : Fin 3)).val := by
        show b.val < k ∨ k + 1 ≤ b.val
        omega
      refine (View.read_writes_cons_unit_of_not_mem arg8.view G (k0_off4_inb ⟨k, hk'⟩) _ _ (ix3 b p q)
        (off4_eq ⟨k, hk'⟩) (0 : Fin 3) hne).trans ?_
      rw [ih (by omega) b p q]
      by_cases h1 : b.val < k
      · rw [if_pos h1, if_pos (by omega)]
      · rw [if_neg h1, if_neg (by omega)]

/-- After all sixteen trips the accumulator at `(b, p, q)` is the payload of trip `b` at `(0, p, q)`: at the rows
    `256 (i 0) + r` and `256 (i 1) + r` of batch `b` of the input and row-block `b` of the accumulator at loop entry. -/
theorem read_after_trips (c : Dev nD) (i : grid0.Coords) (arg2 : Memref sig .tc .vmem S16x2048x64 .f32) (harg2 : arg2.IsWhole) (arg3 : Memref sig .tc .vmem S64x64 .f32) (harg3 : arg3.IsWhole) (arg4 : Memref sig .tc .vmem S256x256 .f32) (harg4 : arg4.IsWhole) (arg5 : Memref sig .tc .vmem S256x256 .i32) (harg5 : arg5.IsWhole) (arg6 : Memref sig .tc .vmem S1x1x64 .f32) (harg6 : arg6.IsWhole) (arg7 : Memref sig .tc .vmem S16x256x64 .f32) (harg7 : arg7.IsWhole) (arg8 : Memref sig .tc .vmem S16x256x64 .f32) (harg8 : arg8.IsWhole) (v3 : Vec F S256x256 .f32) (v4 : Vec F S256x256 .i32) (v7 : Vec F S64x64 .f32)
    (x0 : Vec F S16x2048x64 .f32) (G : BufTy.Contents (Elt F) arg8.view.ty) (b : Fin 16) (p : Fin 256) (q : Fin 64) :
    arg8.view.read (Elt F) (arg8.view.writes (Elt F) G (pb (F := F) c i arg2 harg2 arg3 harg3 arg4 harg4 arg5 harg5 arg6 harg6 arg7 harg7 arg8 harg8 v3 v4 v7 (harg2.unread x0) G 16)) (ix3 b p q)
      = k0_pay2 v3 v4 v7 (rowsAt x0 b (i 0)) (rowsAt x0 b (i 1))
          (fun y => arg8.view.read (Elt F) G (ix3 b (y 1) (y 2))) (ix3 (0 : Fin 1) p q) := by
  rw [read_pb c i arg2 harg2 arg3 harg3 arg4 harg4 arg5 harg5 arg6 harg6 arg7 harg7 arg8 harg8 v3 v4 v7 x0 G 16 le_rfl b p q, if_pos b.isLt]
  rfl

end Cert.KernelIdeal.Hand

end
-- ==== Proof.PayloadI.lean ====
/-
  The three values the kernel stores, read at one coordinate over the extended reals: the zero block, the
  accumulator plus the bias, and the accumulator plus one column tile's contribution to the graph
  convolution (masked attention times the two reciprocal lengths times the inner product, times the
  rows-by-weights product, summed over the tile's 256 columns).
-/
import proofs.«139093_j82867099009361_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## Layout operations on a column -/

section Column
variable {α : Type}

/-- A vector of `a` entries cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The zero block and the bias -/

/-- The first stored value is zero everywhere. -/
theorem pay1_apply (b : Fin 16) (p : Fin 256) (q : Fin 64) : k0_pay1 (F := Ideal) (ix3 b p q) = 0 := by
  unfold k0_pay1
  refine (congrFun (shapeCast_self _ _) _).trans ?_
  show Ideal.ofBits .f32 0x00000000#32 = 0
  exact Ideal.ofBits_zero_f32

/-- The last stored value is the accumulator plus the bias of its column. -/
theorem pay3_apply (v17 : Vec Ideal S16x256x64 .f32) (v18 : Vec Ideal S1x1x64 .f32) (b : Fin 16) (p : Fin 256) (q : Fin 64) :
    k0_pay3 (F := Ideal) v17 v18 (ix3 b p q) = v17 (ix3 b p q) + v18 (ix3 (0 : Fin 1) (0 : Fin 1) q) := by
  unfold k0_pay3
  show v17 (ix3 b p q) + broadcastTo S16x256x64 (shapeCast S1x1x64 v18 shapeCasts_S1x1x64_S1x1x64) broadcasts_S1x1x64_S16x256x64 (ix3 b p q) = _
  refine congrArg (v17 (ix3 b p q) + ·) ?_
  refine (broadcastTo_apply _ broadcasts_S1x1x64_S16x256x64 (ix3 b p q) (ix3 (0 : Fin 1) (0 : Fin 1) q) fun ax => ?_).trans
    (congrFun (shapeCast_self v18 _) _)
  match ax with
  | ⟨0, _⟩ => rfl
  | ⟨1, _⟩ => rfl
  | ⟨2, _⟩ => rfl

/-! ## The lane sum and the three products -/

/-- The sum of squares of row `p` of a block of 256 rows. -/
theorem rowSq_apply (x : FVec Ideal S256x64 .f32) (hφ : FKind.Formats .f32)
    (hacc : (0x00000000#32 : BitVec 32) = FKind.add.neutral .f32 hφ) (p : Fin 256) :
    multiReduction (F := Ideal) .add [1] S256 (mulf x x) 0x00000000#32 reduces_S256x64_S256 hφ hacc (ix1 p)
      = ∑ d : Fin 64, x (ix2 p d) * x (ix2 p d) := by
  refine (Ideal.multiReduction_add_single (mulf x x) 0x00000000#32 reduces_S256x64_S256 hφ hacc (ix1 p)).trans ?_
  refine Finset.sum_congr rfl fun d _ => ?_
  have e : reduces_S256x64_S256.lift (ix1 p) d = ix2 p d :=
    funext fun a => Fin.ext (by match a with | ⟨0, _⟩ => rfl | ⟨1, _⟩ => rfl)
  rw [e]
  rfl

/-- The reciprocal length of row `p`, as the column `[256, 1]` holds it. -/
theorem rowRsqrt_apply (x : FVec Ideal S256x64 .f32) (hφ : FKind.Formats .f32)
    (hacc : (0x00000000#32 : BitVec 32) = FKind.add.neutral .f32 hφ) (p : Fin 256) (u : Fin 1) :
    rsqrt (shapeCast S256x1 (multiReduction (F := Ideal) .add [1] S256 (mulf x x) 0x00000000#32 reduces_S256x64_S256 hφ hacc)
        shapeCasts_S256_S256x1) (ix2 p u)
      = Ideal.rsqrt (∑ d : Fin 64, x (ix2 p d) * x (ix2 p d)) := by
  show Ideal.rsqrt (shapeCast S256x1 _ shapeCasts_S256_S256x1 (ix2 p u)) = _
  refine congrArg Ideal.rsqrt ?_
  exact (shapeCast_a_a1_apply _ shapeCasts_S256_S256x1 p u).trans (rowSq_apply x hφ hacc p)

/-! ## The three products -/

theorem matmulW_lhs_0 (i : S256x64.Idx) (k : dot_S256x64_S64x64_S256x64_1_0_0_1_n_n.contr.Idx) :
    (dot_S256x64_S64x64_S256x64_1_0_0_1_n_n.lhsIdx i k 0).val = (i 0).val := by
  unfold DotDims.lhsIdx
  rw [dif_neg (show ¬(0 : Fin S256x64.rank) ∈ dot_S256x64_S64x64_S256x64_1_0_0_1_n_n.lhsBatch by decide), dif_pos (show (0 : Fin S256x64.rank) ∈ dot_S256x64_S64x64_S256x64_1_0_0_1_n_n.lhsNonContracting by decide)]
  rfl
theorem matmulW_lhs_1 (i : S256x64.Idx) (k : dot_S256x64_S64x64_S256x64_1_0_0_1_n_n.contr.Idx) :
    (dot_S256x64_S64x64_S256x64_1_0_0_1_n_n.lhsIdx i k 1).val = (k ⟨0, by decide⟩).val :=
  dot_S256x64_S64x64_S256x64_1_0_0_1_n_n.lhsIdx_val_of_single rfl i k
theorem matmulW_rhs_0 (i : S256x64.Idx) (k : dot_S256x64_S64x64_S256x64_1_0_0_1_n_n.contr.Idx) :
    (dot_S256x64_S64x64_S256x64_1_0_0_1_n_n.rhsIdx i k 0).val = (k ⟨0, by decide⟩).val :=
  dot_S256x64_S64x64_S256x64_1_0_0_1_n_n.rhsIdx_val_of_single rfl i k
theorem matmulW_rhs_1 (i : S256x64.Idx) (k : dot_S256x64_S64x64_S256x64_1_0_0_1_n_n.contr.Idx) :
    (dot_S256x64_S64x64_S256x64_1_0_0_1_n_n.rhsIdx i k 1).val = (i 1).val := by
  unfold DotDims.rhsIdx
  rw [dif_neg (show ¬(1 : Fin S64x64.rank) ∈ dot_S256x64_S64x64_S256x64_1_0_0_1_n_n.rhsBatch by decide), dif_pos (show (1 : Fin S64x64.rank) ∈ dot_S256x64_S64x64_S256x64_1_0_0_1_n_n.rhsNonContracting by decide)]
  rfl
/-- Rows times the weight matrix: a product contracting a row's 64 entries with the matrix's rows. -/
theorem matmulW_apply {φ₁ φ₂ : FTy} (A : FVec Ideal S256x64 φ₁) (B : FVec Ideal S64x64 φ₂) (p : Fin 256) (q : Fin 64) :
    matmul dot_S256x64_S64x64_S256x64_1_0_0_1_n_n none A B (constant (F := Ideal) S256x64 .f32 0x00000000#32) (ix2 p q)
      = ∑ d : Fin 64, A (ix2 p d) * B (ix2 d q) := by
  refine (Ideal.matmul_constant_zero_apply dot_S256x64_S64x64_S256x64_1_0_0_1_n_n none A B (ix2 p q)).trans ?_
  rw [← Equiv.sum_comp (contrEquiv1 dot_S256x64_S64x64_S256x64_1_0_0_1_n_n 64 rfl rfl).symm]
  refine Finset.sum_congr rfl fun d _ => ?_
  have hk := contrEquiv1_symm_val dot_S256x64_S64x64_S256x64_1_0_0_1_n_n 64 rfl rfl d
  have el : dot_S256x64_S64x64_S256x64_1_0_0_1_n_n.lhsIdx (ix2 p q) ((contrEquiv1 dot_S256x64_S64x64_S256x64_1_0_0_1_n_n 64 rfl rfl).symm d) = ix2 p d :=
    funext fun a => Fin.ext (by
      match a with
      | ⟨0, _⟩ => exact matmulW_lhs_0 _ _
      | ⟨1, _⟩ => exact (matmulW_lhs_1 _ _).trans hk)
  have er : dot_S256x64_S64x64_S256x64_1_0_0_1_n_n.rhsIdx (ix2 p q) ((contrEquiv1 dot_S256x64_S64x64_S256x64_1_0_0_1_n_n 64 rfl rfl).symm d) = ix2 d q :=
    funext fun a => Fin.ext (by
      match a with
      | ⟨0, _⟩ => exact (matmulW_rhs_0 _ _).trans hk
      | ⟨1, _⟩ => exact matmulW_rhs_1 _ _)
  rw [el, er]

theorem matmulG_lhs_0 (i : S256x256.Idx) (k : dot_S256x64_S256x64_S256x256_1_1_0_0_n_n.contr.Idx) :
    (dot_S256x64_S256x64_S256x256_1_1_0_0_n_n.lhsIdx i k 0).val = (i 0).val := by
  unfold DotDims.lhsIdx
  rw [dif_neg (show ¬(0 : Fin S256x64.rank) ∈ dot_S256x64_S256x64_S256x256_1_1_0_0_n_n.lhsBatch by decide), dif_pos (show (0 : Fin S256x64.rank) ∈ dot_S256x64_S256x64_S256x256_1_1_0_0_n_n.lhsNonContracting by decide)]
  rfl
theorem matmulG_lhs_1 (i : S256x256.Idx) (k : dot_S256x64_S256x64_S256x256_1_1_0_0_n_n.contr.Idx) :
    (dot_S256x64_S256x64_S256x256_1_1_0_0_n_n.lhsIdx i k 1).val = (k ⟨0, by decide⟩).val :=
  dot_S256x64_S256x64_S256x256_1_1_0_0_n_n.lhsIdx_val_of_single rfl i k
theorem matmulG_rhs_0 (i : S256x256.Idx) (k : dot_S256x64_S256x64_S256x256_1_1_0_0_n_n.contr.Idx) :
    (dot_S256x64_S256x64_S256x256_1_1_0_0_n_n.rhsIdx i k 0).val = (i 1).val := by
  unfold DotDims.rhsIdx
  rw [dif_neg (show ¬(0 : Fin S256x64.rank) ∈ dot_S256x64_S256x64_S256x256_1_1_0_0_n_n.rhsBatch by decide), dif_pos (show (0 : Fin S256x64.rank) ∈ dot_S256x64_S256x64_S256x256_1_1_0_0_n_n.rhsNonContracting by decide)]
  rfl
theorem matmulG_rhs_1 (i : S256x256.Idx) (k : dot_S256x64_S256x64_S256x256_1_1_0_0_n_n.contr.Idx) :
    (dot_S256x64_S256x64_S256x256_1_1_0_0_n_n.rhsIdx i k 1).val = (k ⟨0, by decide⟩).val :=
  dot_S256x64_S256x64_S256x256_1_1_0_0_n_n.rhsIdx_val_of_single rfl i k
/-- The inner products of the rows of two blocks: a product contracting both operands' 64 entries. -/
theorem matmulG_apply {φ₁ φ₂ : FTy} (A : FVec Ideal S256x64 φ₁) (B : FVec Ideal S256x64 φ₂) (p : Fin 256) (j : Fin 256) :
    matmul dot_S256x64_S256x64_S256x256_1_1_0_0_n_n none A B (constant (F := Ideal) S256x256 .f32 0x00000000#32) (ix2 p j)
      = ∑ d : Fin 64, A (ix2 p d) * B (ix2 j d) := by
  refine (Ideal.matmul_constant_zero_apply dot_S256x64_S256x64_S256x256_1_1_0_0_n_n none A B (ix2 p j)).trans ?_
  rw [← Equiv.sum_comp (contrEquiv1 dot_S256x64_S256x64_S256x256_1_1_0_0_n_n 64 rfl rfl).symm]
  refine Finset.sum_congr rfl fun d _ => ?_
  have hk := contrEquiv1_symm_val dot_S256x64_S256x64_S256x256_1_1_0_0_n_n 64 rfl rfl d
  have el : dot_S256x64_S256x64_S256x256_1_1_0_0_n_n.lhsIdx (ix2 p j) ((contrEquiv1 dot_S256x64_S256x64_S256x256_1_1_0_0_n_n 64 rfl rfl).symm d) = ix2 p d :=
    funext fun a => Fin.ext (by
      match a with
      | ⟨0, _⟩ => exact matmulG_lhs_0 _ _
      | ⟨1, _⟩ => exact (matmulG_lhs_1 _ _).trans hk)
  have er : dot_S256x64_S256x64_S256x256_1_1_0_0_n_n.rhsIdx (ix2 p j) ((contrEquiv1 dot_S256x64_S256x64_S256x256_1_1_0_0_n_n 64 rfl rfl).symm d) = ix2 j d :=
    funext fun a => Fin.ext (by
      match a with
      | ⟨0, _⟩ => exact matmulG_rhs_0 _ _
      | ⟨1, _⟩ => exact (matmulG_rhs_1 _ _).trans hk)
  rw [el, er]

theorem matmulO_lhs_0 (i : S256x64.Idx) (k : dot_S256x256_S256x64_S256x64_1_0_0_1_n_n.contr.Idx) :
    (dot_S256x256_S256x64_S256x64_1_0_0_1_n_n.lhsIdx i k 0).val = (i 0).val := by
  unfold DotDims.lhsIdx
  rw [dif_neg (show ¬(0 : Fin S256x256.rank) ∈ dot_S256x256_S256x64_S256x64_1_0_0_1_n_n.lhsBatch by decide), dif_pos (show (0 : Fin S256x256.rank) ∈ dot_S256x256_S256x64_S256x64_1_0_0_1_n_n.lhsNonContracting by decide)]
  rfl
theorem matmulO_lhs_1 (i : S256x64.Idx) (k : dot_S256x256_S256x64_S256x64_1_0_0_1_n_n.contr.Idx) :
    (dot_S256x256_S256x64_S256x64_1_0_0_1_n_n.lhsIdx i k 1).val = (k ⟨0, by decide⟩).val :=
  dot_S256x256_S256x64_S256x64_1_0_0_1_n_n.lhsIdx_val_of_single rfl i k
theorem matmulO_rhs_0 (i : S256x64.Idx) (k : dot_S256x256_S256x64_S256x64_1_0_0_1_n_n.contr.Idx) :
    (dot_S256x256_S256x64_S256x64_1_0_0_1_n_n.rhsIdx i k 0).val = (k ⟨0, by decide⟩).val :=
  dot_S256x256_S256x64_S256x64_1_0_0_1_n_n.rhsIdx_val_of_single rfl i k
theorem matmulO_rhs_1 (i : S256x64.Idx) (k : dot_S256x256_S256x64_S256x64_1_0_0_1_n_n.contr.Idx) :
    (dot_S256x256_S256x64_S256x64_1_0_0_1_n_n.rhsIdx i k 1).val = (i 1).val := by
  unfold DotDims.rhsIdx
  rw [dif_neg (show ¬(1 : Fin S256x64.rank) ∈ dot_S256x256_S256x64_S256x64_1_0_0_1_n_n.rhsBatch by decide), dif_pos (show (1 : Fin S256x64.rank) ∈ dot_S256x256_S256x64_S256x64_1_0_0_1_n_n.rhsNonContracting by decide)]
  rfl
/-- The adjacency times the rows-by-weights product: a product contracting the tile's 256 columns. -/
theorem matmulO_apply {φ₁ φ₂ : FTy} (A : FVec Ideal S256x256 φ₁) (B : FVec Ideal S256x64 φ₂) (p : Fin 256) (q : Fin 64) :
    matmul dot_S256x256_S256x64_S256x64_1_0_0_1_n_n none A B (constant (F := Ideal) S256x64 .f32 0x00000000#32) (ix2 p q)
      = ∑ j : Fin 256, A (ix2 p j) * B (ix2 j q) := by
  refine (Ideal.matmul_constant_zero_apply dot_S256x256_S256x64_S256x64_1_0_0_1_n_n none A B (ix2 p q)).trans ?_
  rw [← Equiv.sum_comp (contrEquiv1 dot_S256x256_S256x64_S256x64_1_0_0_1_n_n 256 rfl rfl).symm]
  refine Finset.sum_congr rfl fun j _ => ?_
  have hk := contrEquiv1_symm_val dot_S256x256_S256x64_S256x64_1_0_0_1_n_n 256 rfl rfl j
  have el : dot_S256x256_S256x64_S256x64_1_0_0_1_n_n.lhsIdx (ix2 p q) ((contrEquiv1 dot_S256x256_S256x64_S256x64_1_0_0_1_n_n 256 rfl rfl).symm j) = ix2 p j :=
    funext fun a => Fin.ext (by
      match a with
      | ⟨0, _⟩ => exact matmulO_lhs_0 _ _
      | ⟨1, _⟩ => exact (matmulO_lhs_1 _ _).trans hk)
  have er : dot_S256x256_S256x64_S256x64_1_0_0_1_n_n.rhsIdx (ix2 p q) ((contrEquiv1 dot_S256x256_S256x64_S256x64_1_0_0_1_n_n 256 rfl rfl).symm j) = ix2 j q :=
    funext fun a => Fin.ext (by
      match a with
      | ⟨0, _⟩ => exact (matmulO_rhs_0 _ _).trans hk
      | ⟨1, _⟩ => exact matmulO_rhs_1 _ _)
  rw [el, er]

/-! ## One column tile's contribution -/

/-- The value stored each trip: the accumulator plus, over the tile's 256 columns `j`, the masked
    attention at `(p, j)` times the reciprocal lengths of rows `p` and `j` times their inner product,
    times row `j` by the weight matrix at column `q`. -/
theorem pay2_apply (v3 : Vec Ideal S256x256 .f32) (v4 : Vec Ideal S256x256 .i32) (v7 : Vec Ideal S64x64 .f32)
    (v20 v24 : Vec Ideal S256x64 .f32) (v47 : Vec Ideal S1x256x64 .f32) (p : Fin 256) (q : Fin 64) :
    k0_pay2 (F := Ideal) v3 v4 v7 v20 v24 v47 (ix3 (0 : Fin 1) p q)
      = v47 (ix3 (0 : Fin 1) p q)
        + ∑ j : Fin 256, (v3 (ix2 p j) * (sitofp (F := Ideal) .f32 v4) (ix2 p j)
              * (Ideal.rsqrt (∑ d : Fin 64, v20 (ix2 p d) * v20 (ix2 p d)) * Ideal.rsqrt (∑ d : Fin 64, v24 (ix2 j d) * v24 (ix2 j d)))
              * (∑ d : Fin 64, v20 (ix2 p d) * v24 (ix2 j d)))
            * (∑ d : Fin 64, v24 (ix2 j d) * v7 (ix2 d q)) := by
  unfold k0_pay2
  refine (shapeCast_ab_1ab_apply _ shapeCasts_S256x64_S1x256x64 (0 : Fin 1) p q).trans ?_
  refine congrArg₂ (· + ·) (shapeCast_1ab_ab_apply v47 shapeCasts_S1x256x64_S256x64 p q) ?_
  refine (matmulO_apply _ _ p q).trans (Finset.sum_congr rfl fun j _ => ?_)
  show (v3 (ix2 p j) * (sitofp (F := Ideal) .f32 v4) (ix2 p j)
        * (broadcastTo S256x256 (rsqrt (shapeCast S256x1 (multiReduction (F := Ideal) .add [1] S256 (mulf v20 v20) 0x00000000#32 reduces_S256x64_S256 (.inl rfl) rfl) shapeCasts_S256_S256x1)) broadcasts_S256x1_S256x256 (ix2 p j)
          * broadcastTo S256x256 (transpose S1x256 [1, 0] (rsqrt (shapeCast S256x1 (multiReduction (F := Ideal) .add [1] S256 (mulf v24 v24) 0x00000000#32 reduces_S256x64_S256 (.inl rfl) rfl) shapeCasts_S256_S256x1)) transposes_S256x1_p1_0_S1x256) broadcasts_S1x256_S256x256 (ix2 p j))
        * matmul dot_S256x64_S256x64_S256x256_1_1_0_0_n_n none (truncf .bf16 v20 bitsLt_bf16_f32) (truncf .bf16 v24 bitsLt_bf16_f32) (constant (F := Ideal) S256x256 .f32 0x00000000#32) (ix2 p j))
      * matmul dot_S256x64_S64x64_S256x64_1_0_0_1_n_n none (truncf .bf16 v24 bitsLt_bf16_f32) (truncf .bf16 v7 bitsLt_bf16_f32) (constant (F := Ideal) S256x64 .f32 0x00000000#32) (ix2 j q) = _
  have hp := (broadcastTo_a1_ab_apply _ broadcasts_S256x1_S256x256 p j).trans (rowRsqrt_apply v20 (.inl rfl) rfl p 0)
  have hj := ((broadcastTo_1b_ab_apply _ broadcasts_S1x256_S256x256 p j).trans
      (transpose_ix2_apply _ transposes_S256x1_p1_0_S1x256 (0 : Fin 1) j)).trans (rowRsqrt_apply v24 (.inl rfl) rfl j 0)
  have hg := matmulG_apply (truncf .bf16 v20 bitsLt_bf16_f32) (truncf .bf16 v24 bitsLt_bf16_f32) p j
  have hw := matmulW_apply (truncf .bf16 v24 bitsLt_bf16_f32) (truncf .bf16 v7 bitsLt_bf16_f32) j q
  rw [hp, hj, hg, hw]
  rfl

end Cert.KernelIdeal.Payload

end
-- ==== Proof.BlocksI.lean ====
/-
  Each input window's block at a grid point, read at coordinates as an entry of the argument array it is
  cut from; and a load through the whole rectangle of a whole buffer, which reads the buffer's contents.
-/
import proofs.«139093_j82867099009361_2_alg».proof.Proof.Gen.KernelIdeal.Frame
import Idealize.ShloMosaic.Lib.ValueIdx
import Idealize.ShloMosaic.Lib.ValueLayout
import Idealize.ShloMosaic.Lib.Pipeline.Value

noncomputable section

namespace Cert.KernelIdeal.Blocks

open Cert.KernelIdeal Cert.KernelIdeal.Gen Idealize.ShloMosaic Idealize.ShloMosaic.ValueIdx
open Idealize.ShloMosaic.TcCoe Idealize.SL.Sem

variable {F : FTy → Type} [FloatOps F]
variable (m : (ℓ : Loc nD τ sig) → Buf (Elt F) ℓ)

/-! ## The block indices over the grid -/

/-- The block index of each input window at each grid point: the whole-array windows sit at block zero,
    the attention and mask windows at the block of the point's two coordinates, which are below 8. -/
theorem idx_facts : ∀ t : Fin cfg0.N,
    (win0_0.index t (0 : Fin 3) = 0 ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = (grid0.coords t 0).val ∧ win0_2.index t (1 : Fin 2) = (grid0.coords t 1).val)
    ∧ (win0_3.index t (0 : Fin 2) = (grid0.coords t 0).val ∧ win0_3.index t (1 : Fin 2) = (grid0.coords t 1).val)
    ∧ (win0_4.index t (0 : Fin 3) = 0 ∧ win0_4.index t (1 : Fin 3) = 0 ∧ win0_4.index t (2 : Fin 3) = 0)
    ∧ ((grid0.coords t 0).val < 8 ∧ (grid0.coords t 1).val < 8) :=
  (by decide +kernel : ∀ t : Fin grid0.N, _)

/-- A row (or column) of a tile of 256 is a row (or column) of the 2048. -/
theorem tile_lt (t : Fin cfg0.N) (a : Fin 2) (p : Fin 256) : (grid0.coords t a).val * 256 + p.val < 2048 := by
  obtain ⟨-, -, -, -, -, h0, h1⟩ := idx_facts t
  have hp := p.isLt
  match a with
  | ⟨0, _⟩ => show (grid0.coords t 0).val * 256 + p.val < 2048; omega
  | ⟨1, _⟩ => show (grid0.coords t 1).val * 256 + p.val < 2048; omega

/-! ## The blocks -/

/-- The rows' window holds the whole array at every point. -/
theorem iblk0_apply (c : Dev nD) (t : Fin cfg0.N) (b : Fin 16) (n : Fin 2048) (d : Fin 64) :
    (iblk (F := F) m c 0 t : Vec F S16x2048x64 .f32) (ix3 b n d)
      = (m ((c : Thread nD τ).loc main_arg0) : S16x2048x64.Idx → Elt F .f32) (ix3 b n d) := by
  obtain ⟨⟨e0, e1, e2⟩, -⟩ := idx_facts t
  unfold iblk
  rw [View.read_apply]
  show V m c main_arg0 _ = _
  rw [V_main_arg0]
  show (m ((c : Thread nD τ).loc main_arg0) : S16x2048x64.Idx → Elt F .f32) _ = _
  refine congrArg _ (funext fun a => Fin.ext ?_)
  match a with
  | ⟨0, _⟩ => show win0_0.index t (0 : Fin 3) * 16 + 1 * b.val = b.val; omega
  | ⟨1, _⟩ => show win0_0.index t (1 : Fin 3) * 2048 + 1 * n.val = n.val; omega
  | ⟨2, _⟩ => show win0_0.index t (2 : Fin 3) * 64 + 1 * d.val = d.val; omega

/-- The weight window holds the whole matrix at every point. -/
theorem iblk1_apply (c : Dev nD) (t : Fin cfg0.N) (d e : Fin 64) :
    (iblk (F := F) m c 1 t : Vec F S64x64 .f32) (ix2 d e)
      = (m ((c : Thread nD τ).loc main_arg1) : S64x64.Idx → Elt F .f32) (ix2 d e) := by
  obtain ⟨-, ⟨e0, e1⟩, -⟩ := idx_facts t
  unfold iblk
  rw [View.read_apply]
  show V m c main_arg1 _ = _
  rw [V_main_arg1]
  show (m ((c : Thread nD τ).loc main_arg1) : S64x64.Idx → Elt F .f32) _ = _
  refine congrArg _ (funext fun a => Fin.ext ?_)
  match a with
  | ⟨0, _⟩ => show win0_1.index t (0 : Fin 2) * 64 + 1 * d.val = d.val; omega
  | ⟨1, _⟩ => show win0_1.index t (1 : Fin 2) * 64 + 1 * e.val = e.val; omega

/-- The attention window's block at a point is the tile of the matrix at the point's two coordinates. -/
theorem iblk2_apply (c : Dev nD) (t : Fin cfg0.N) (p j : Fin 256) :
    (iblk (F := F) m c 2 t : Vec F S256x256 .f32) (ix2 p j)
      = (m ((c : Thread nD τ).loc main_arg2) : S2048x2048.Idx → Elt F .f32)
          (ix2 (⟨(grid0.coords t 0).val * 256 + p.val, tile_lt t 0 p⟩ : Fin 2048)
            (⟨(grid0.coords t 1).val * 256 + j.val, tile_lt t 1 j⟩ : Fin 2048)) := by
  obtain ⟨-, -, ⟨e0, e1⟩, -⟩ := idx_facts t
  unfold iblk
  rw [View.read_apply]
  show V m c main_arg2 _ = _
  rw [V_main_arg2]
  show (m ((c : Thread nD τ).loc main_arg2) : S2048x2048.Idx → Elt F .f32) _ = _
  refine congrArg _ (funext fun a => Fin.ext ?_)
  match a with
  | ⟨0, _⟩ => show win0_2.index t (0 : Fin 2) * 256 + 1 * p.val = (grid0.coords t 0).val * 256 + p.val; omega
  | ⟨1, _⟩ => show win0_2.index t (1 : Fin 2) * 256 + 1 * j.val = (grid0.coords t 1).val * 256 + j.val; omega

/-- The mask window's block at a point is the same tile of the mask. -/
theorem iblk3_apply (c : Dev nD) (t : Fin cfg0.N) (p j : Fin 256) :
    (iblk (F := F) m c 3 t : Vec F S256x256 .i32) (ix2 p j)
      = (m ((c : Thread nD τ).loc main_arg4) : S2048x2048.Idx → Elt F .i32)
          (ix2 (⟨(grid0.coords t 0).val * 256 + p.val, tile_lt t 0 p⟩ : Fin 2048)
            (⟨(grid0.coords t 1).val * 256 + j.val, tile_lt t 1 j⟩ : Fin 2048)) := by
  obtain ⟨-, -, -, ⟨e0, e1⟩, -⟩ := idx_facts t
  unfold iblk
  rw [View.read_apply]
  show V m c main_arg4 _ = _
  rw [V_main_arg4]
  show (m ((c : Thread nD τ).loc main_arg4) : S2048x2048.Idx → Elt F .i32) _ = _
  refine congrArg _ (funext fun a => Fin.ext ?_)
  match a with
  | ⟨0, _⟩ => show win0_3.index t (0 : Fin 2) * 256 + 1 * p.val = (grid0.coords t 0).val * 256 + p.val; omega
  | ⟨1, _⟩ => show win0_3.index t (1 : Fin 2) * 256 + 1 * j.val = (grid0.coords t 1).val * 256 + j.val; omega

/-- The bias as the region finds it: the vector of 64 entries laid out as `[1, 1, 64]`. -/
theorem V_bias (c : Dev nD) :
    (V m c main_v0 : S1x1x64.Idx → Elt F .f32)
      = shapeCast S1x1x64 (m ((c : Thread nD τ).loc main_arg3) : S64.Idx → Elt F .f32) shapeCasts_S64_S1x1x64 := by
  dsimp only [Gen.V, Gen.hostOps0]
  after_results
  rfl

/-- The bias window holds the whole bias at every point. -/
theorem iblk4_apply (c : Dev nD) (t : Fin cfg0.N) (q : Fin 64) :
    (iblk (F := F) m c 4 t : Vec F S1x1x64 .f32) (ix3 (0 : Fin 1) (0 : Fin 1) q)
      = (m ((c : Thread nD τ).loc main_arg3) : S64.Idx → Elt F .f32) (ix1 q) := by
  obtain ⟨-, -, -, -, ⟨e0, e1, e2⟩, -⟩ := idx_facts t
  unfold iblk
  rw [View.read_apply]
  show (V m c main_v0 : S1x1x64.Idx → Elt F .f32) _ = _
  rw [V_bias]
  refine shapeCast_apply _ shapeCasts_S64_S1x1x64 _ (ix1 q) ?_
  rw [Shape.rowMajor_val_one, Shape.rowMajor_val_three]
  show q.val = ((win0_4.index t (0 : Fin 3) * 1 + 1 * 0) * 1 + (win0_4.index t (1 : Fin 3) * 1 + 1 * 0)) * 64 + (win0_4.index t (2 : Fin 3) * 64 + 1 * q.val)
  omega

/-! ## The output window -/

/-- The grid's two coordinates of a point: the quotient and the remainder by 8. -/
theorem grid_facts : ∀ t : Fin cfg0.N, (grid0.coords t 0).val = t.val / 8 ∧ (grid0.coords t 1).val = t.val % 8 :=
  (by decide +kernel : ∀ t : Fin grid0.N, _)

/-- The output window's block index at a point: the row tile of the point's first coordinate. -/
theorem idx5_facts : ∀ t : Fin cfg0.N,
    win0_5.index t (0 : Fin 3) = 0 ∧ win0_5.index t (1 : Fin 3) = (grid0.coords t 0).val ∧ win0_5.index t (2 : Fin 3) = 0 :=
  (by decide +kernel : ∀ t : Fin grid0.N, _)

/-- The output window's block at a point, read off any contents of the result array: the rows of the
    point's row tile. -/
theorem blk5_read (c : Dev nD) (G : Buf (Elt F) ((cfg0.win 5).arr.view.loc (c.tc : Thread nD τ))) (t : Fin cfg0.N)
    (b : Fin 16) (p : Fin 256) (q : Fin 64) :
    (((cfg0.win 5).blk t).view.read (Elt F) G : Vec F S16x256x64 .f32) (ix3 b p q)
      = (G : S16x2048x64.Idx → Elt F .f32) (ix3 b (⟨(grid0.coords t 0).val * 256 + p.val, tile_lt t 0 p⟩ : Fin 2048) q) := by
  obtain ⟨e0, e1, e2⟩ := idx5_facts t
  rw [View.read_apply]
  show (G : S16x2048x64.Idx → Elt F .f32) _ = _
  refine congrArg _ (funext fun a => Fin.ext ?_)
  match a with
  | ⟨0, _⟩ => show win0_5.index t (0 : Fin 3) * 16 + 1 * b.val = b.val; omega
  | ⟨1, _⟩ => show win0_5.index t (1 : Fin 3) * 256 + 1 * p.val = (grid0.coords t 0).val * 256 + p.val; omega
  | ⟨2, _⟩ => show win0_5.index t (2 : Fin 3) * 64 + 1 * q.val = q.val; omega

/-- An index of the result array is in a point's block iff each coordinate is in the block's range on its axis. -/
theorem mem_blk5 (t : Fin cfg0.N) (i : S16x2048x64.Idx) :
    i ∈ ((cfg0.win 5).blk t).view.set ↔ ∀ a : Fin 3, win0_5.index t a * S16x256x64.size a ≤ (i a).val
      ∧ (i a).val < win0_5.index t a * S16x256x64.size a + S16x256x64.size a := by
  show i ∈ ((View.whole main_v1).slice (win0_5.rect t)).set ↔ _
  rw [View.set_slice_whole, Rect.mem_set_unit]
  exact Iff.rfl

/-- Every index of the result array is in the block of a point that writes back: row `n` is in the block
    of the last point of row tile `n / 256`. -/
theorem cover5_idx (i : S16x2048x64.Idx) :
    ∃ t : Fin cfg0.N, (cfg0.win 5).flush t = true ∧ i ∈ ((cfg0.win 5).blk t).view.set := by
  have hN : cfg0.N = 64 := N_0
  have h0 : (i 0).val < 16 := (i 0).isLt
  have h1 : (i 1).val < 2048 := (i 1).isLt
  have h2 : (i 2).val < 64 := (i 2).isLt
  obtain ⟨t, ht⟩ : ∃ t : Fin cfg0.N, t.val = (i 1).val / 256 * 8 + 7 := ⟨⟨(i 1).val / 256 * 8 + 7, by rw [hN]; omega⟩, rfl⟩
  obtain ⟨g0, g1⟩ := grid_facts t
  obtain ⟨e0, e1, e2⟩ := idx5_facts t
  refine ⟨t, (flush0_5 t).mpr (by omega), ?_⟩
  rw [mem_blk5]
  intro a
  match a with
  | ⟨0, _⟩ => show win0_5.index t (0 : Fin 3) * 16 ≤ (i 0).val ∧ (i 0).val < win0_5.index t (0 : Fin 3) * 16 + 16; omega
  | ⟨1, _⟩ => show win0_5.index t (1 : Fin 3) * 256 ≤ (i 1).val ∧ (i 1).val < win0_5.index t (1 : Fin 3) * 256 + 256; omega
  | ⟨2, _⟩ => show win0_5.index t (2 : Fin 3) * 64 ≤ (i 2).val ∧ (i 2).val < win0_5.index t (2 : Fin 3) * 64 + 64; omega

/-- The same, at the index type of the window's array on a core. -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set :=
  cover5_idx i

/-! ## A load through the whole rectangle of a whole buffer -/

theorem zero2 : (![0, 0] : Fin 2 → Nat) = fun _ => 0 := funext fun a => by fin_cases a <;> rfl
theorem zero3 : (![0, 0, 0] : Fin 3 → Nat) = fun _ => 0 := funext fun a => by fin_cases a <;> rfl

section WholeLoad
variable {S : Shape} {e : EltTy}

/-- A load through the rectangle of the buffer's own sizes at zero offsets reads what the buffer's view reads. -/
theorem readAt_whole (M : Memref sig .tc .vmem S e) {off : Fin S.rank → Nat} (hz : off = fun _ => 0)
    (inb : ∀ a, off a + S.size a ≤ S.size a) (f : M.view.ty.Contents (Elt F)) :
    M.view.readAt (Elt F) (Rect.unit (s := S) off S.size inb).toLoadRect f = M.view.read (Elt F) f :=
  (View.readAt_eq_ld M.view f _).trans (View.ld_unit_zero hz inb _)

/-- Of a whole buffer whose contents read `x`, it reads `x`. -/
theorem readAt_whole_unread (M : Memref sig .tc .vmem S e) (h : M.IsWhole) {off : Fin S.rank → Nat} (hz : off = fun _ => 0)
    (inb : ∀ a, off a + S.size a ≤ S.size a) (x : S.Idx → Elt F e) :
    M.view.readAt (Elt F) (Rect.unit (s := S) off S.size inb).toLoadRect (h.unread x) = x :=
  (readAt_whole M hz inb _).trans (h.read_unread x)

end WholeLoad

/-- Rank 2, at any extents and element type (the attention, mask and weight buffers). -/
theorem readAt_whole2 {a b : Nat} {e : EltTy} (M : Memref sig .tc .vmem ⟨2, ![a, b]⟩ e)
    (inb : ∀ k, (![0, 0] : Fin 2 → Nat) k + (⟨2, ![a, b]⟩ : Shape).size k ≤ (⟨2, ![a, b]⟩ : Shape).size k)
    (f : M.view.ty.Contents (Elt F)) :
    M.view.readAt (Elt F) (Rect.unit (s := ⟨2, ![a, b]⟩) ![0, 0] (⟨2, ![a, b]⟩ : Shape).size inb).toLoadRect f = M.view.read (Elt F) f :=
  readAt_whole M zero2 inb f

theorem readAt_whole2_unread {a b : Nat} {e : EltTy} (M : Memref sig .tc .vmem ⟨2, ![a, b]⟩ e) (h : M.IsWhole)
    (inb : ∀ k, (![0, 0] : Fin 2 → Nat) k + (⟨2, ![a, b]⟩ : Shape).size k ≤ (⟨2, ![a, b]⟩ : Shape).size k)
    (x : (⟨2, ![a, b]⟩ : Shape).Idx → Elt F e) :
    M.view.readAt (Elt F) (Rect.unit (s := ⟨2, ![a, b]⟩) ![0, 0] (⟨2, ![a, b]⟩ : Shape).size inb).toLoadRect (h.unread x) = x :=
  readAt_whole_unread M h zero2 inb x

/-- Rank 3, at any extents and element type (the bias, accumulator and output buffers). -/
theorem readAt_whole3 {a b d : Nat} {e : EltTy} (M : Memref sig .tc .vmem ⟨3, ![a, b, d]⟩ e)
    (inb : ∀ k, (![0, 0, 0] : Fin 3 → Nat) k + (⟨3, ![a, b, d]⟩ : Shape).size k ≤ (⟨3, ![a, b, d]⟩ : Shape).size k)
    (f : M.view.ty.Contents (Elt F)) :
    M.view.readAt (Elt F) (Rect.unit (s := ⟨3, ![a, b, d]⟩) ![0, 0, 0] (⟨3, ![a, b, d]⟩ : Shape).size inb).toLoadRect f = M.view.read (Elt F) f :=
  readAt_whole M zero3 inb f

theorem readAt_whole3_unread {a b d : Nat} {e : EltTy} (M : Memref sig .tc .vmem ⟨3, ![a, b, d]⟩ e) (h : M.IsWhole)
    (inb : ∀ k, (![0, 0, 0] : Fin 3 → Nat) k + (⟨3, ![a, b, d]⟩ : Shape).size k ≤ (⟨3, ![a, b, d]⟩ : Shape).size k)
    (x : (⟨3, ![a, b, d]⟩ : Shape).Idx → Elt F e) :
    M.view.readAt (Elt F) (Rect.unit (s := ⟨3, ![a, b, d]⟩) ![0, 0, 0] (⟨3, ![a, b, d]⟩ : Shape).size inb).toLoadRect (h.unread x) = x :=
  readAt_whole_unread M h zero3 inb x

/-! The five buffers of the kernel, by name. -/

theorem readAt_S256x256 {e : EltTy} (M : Memref sig .tc .vmem S256x256 e) (h : M.IsWhole)
    (inb : ∀ k, (![0, 0] : Fin 2 → Nat) k + S256x256.size k ≤ S256x256.size k) (x : S256x256.Idx → Elt F e) :
    M.view.readAt (Elt F) (Rect.unit (s := S256x256) ![0, 0] S256x256.size inb).toLoadRect (h.unread x) = x :=
  readAt_whole_unread M h zero2 inb x

theorem readAt_S64x64 {e : EltTy} (M : Memref sig .tc .vmem S64x64 e) (h : M.IsWhole)
    (inb : ∀ k, (![0, 0] : Fin 2 → Nat) k + S64x64.size k ≤ S64x64.size k) (x : S64x64.Idx → Elt F e) :
    M.view.readAt (Elt F) (Rect.unit (s := S64x64) ![0, 0] S64x64.size inb).toLoadRect (h.unread x) = x :=
  readAt_whole_unread M h zero2 inb x

theorem readAt_S1x1x64 {e : EltTy} (M : Memref sig .tc .vmem S1x1x64 e) (h : M.IsWhole)
    (inb : ∀ k, (![0, 0, 0] : Fin 3 → Nat) k + S1x1x64.size k ≤ S1x1x64.size k) (x : S1x1x64.Idx → Elt F e) :
    M.view.readAt (Elt F) (Rect.unit (s := S1x1x64) ![0, 0, 0] S1x1x64.size inb).toLoadRect (h.unread x) = x :=
  readAt_whole_unread M h zero3 inb x

theorem readAt_S16x256x64 {e : EltTy} (M : Memref sig .tc .vmem S16x256x64 e) (h : M.IsWhole)
    (inb : ∀ k, (![0, 0, 0] : Fin 3 → Nat) k + S16x256x64.size k ≤ S16x256x64.size k) (x : S16x256x64.Idx → Elt F e) :
    M.view.readAt (Elt F) (Rect.unit (s := S16x256x64) ![0, 0, 0] S16x256x64.size inb).toLoadRect (h.unread x) = x :=
  readAt_whole_unread M h zero3 inb x

end Cert.KernelIdeal.Blocks

end
-- ==== Proof.Spec.lean ====
/-
  The masked cosine-similarity graph convolution as functions on the extended reals, in the two
  arrangements the two programs compute.

  For a batch `b`, rows `x b n` (vectors of 64 entries), a weight matrix `w`, a masked attention
  matrix `am` and a bias vector, the result at `(b, n, e)` is
  `∑ m, adj b n m * support b m e + bias e`, where `support b m e = ∑ d, x b m d * w d e` and the
  adjacency `adj b n m` is the masked attention `am n m` times the cosine of the angle between rows `n`
  and `m`. One arrangement (`adjK`, `outK`) multiplies the inner product by the two reciprocal lengths
  and sums the columns `m` tile by tile, eight tiles of 256; the other (`adjR`, `outR`) divides the
  inner product by the product of the two lengths and sums over all 2048 columns at once.
-/
import Idealize.ShloMosaic.PureOps.Ideal

noncomputable section

open scoped BigOperators
open Idealize.ShloMosaic

namespace GraphConv

variable (x : Fin 16 → Fin 2048 → Fin 64 → EReal) (w : Fin 64 → Fin 64 → EReal)
  (am : Fin 2048 → Fin 2048 → EReal) (bias : Fin 64 → EReal)

/-- The squared length of row `n` of batch `b`. -/
def sq (b : Fin 16) (n : Fin 2048) : EReal := ∑ d : Fin 64, x b n d * x b n d

/-- The inner product of rows `n` and `m` of batch `b`. -/
def gram (b : Fin 16) (n m : Fin 2048) : EReal := ∑ d : Fin 64, x b n d * x b m d

/-- Row `m` of batch `b` times the weight matrix, at column `e`. -/
def support (b : Fin 16) (m : Fin 2048) (e : Fin 64) : EReal := ∑ d : Fin 64, x b m d * w d e

/-- The adjacency with reciprocal lengths: `am n m · (1/|x_n| · 1/|x_m|) · ⟨x_n, x_m⟩`. -/
def adjK (b : Fin 16) (n m : Fin 2048) : EReal :=
  am n m * (Ideal.rsqrt (sq x b n) * Ideal.rsqrt (sq x b m)) * gram x b n m

/-- The adjacency with a quotient: `am n m · (⟨x_n, x_m⟩ / (|x_n| · |x_m|))`. -/
def adjR (b : Fin 16) (n m : Fin 2048) : EReal :=
  am n m * Ideal.div (gram x b n m) (Ideal.sqrt (sq x b n) * Ideal.sqrt (sq x b m))

/-- Column `j` of column tile `k`: the column `256 k + j`. -/
def col (k : Fin 8) (j : Fin 256) : Fin 2048 := ⟨k.val * 256 + j.val, by omega⟩

/-- The result summed tile by tile, with the reciprocal-length adjacency. -/
def outK (b : Fin 16) (n : Fin 2048) (e : Fin 64) : EReal :=
  (∑ k : Fin 8, ∑ j : Fin 256, adjK x am b n (col k j) * support x w b (col k j) e) + bias e

/-- The result summed over all columns, with the quotient adjacency. -/
def outR (b : Fin 16) (n : Fin 2048) (e : Fin 64) : EReal :=
  (∑ m : Fin 2048, adjR x am b n m * support x w b m e) + bias e

end GraphConv

end
-- ==== Proof.GlueI.lean ====
/-
  One grid point's stored value is the accumulator plus the point's tile contribution: the value the
  kernel stores each trip, given the attention, mask and weight blocks the point loads and the two row
  blocks of batch `b`, is, at `(b, p, q)`, what the accumulator held there plus the sum over the tile's
  256 columns of the adjacency (masked attention times the two reciprocal lengths times the inner
  product) times the rows-by-weights product, of the argument arrays.
-/
import proofs.«139093_j82867099009361_2_alg».proof.Proof.BodyI
import proofs.«139093_j82867099009361_2_alg».proof.Proof.LoopValI
import proofs.«139093_j82867099009361_2_alg».proof.Proof.PayloadI
import proofs.«139093_j82867099009361_2_alg».proof.Proof.BlocksI
import proofs.«139093_j82867099009361_2_alg».proof.Proof.Spec
import Idealize.ShloMosaic.Lib.ValueIdx
import Idealize.ShloMosaic.Lib.Pipeline.Value
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.KernelIdeal.Payload Cert.KernelIdeal.Blocks GraphConv
open scoped BigOperators

variable (m : (ℓ : Loc nD τ sig) → Buf (Elt Ideal) ℓ) (ρ : Dev nD → PrngReg)

/-! ## The argument arrays by coordinates -/

/-- The input rows: `x b n d`. -/
def xA (c : Dev nD) : Fin 16 → Fin 2048 → Fin 64 → EReal :=
  fun b n d => ((m ((c : Thread nD τ).loc main_arg0) : S16x2048x64.Idx → Elt Ideal .f32) (ix3 b n d) : EReal)
/-- The weight matrix. -/
def wA (c : Dev nD) : Fin 64 → Fin 64 → EReal :=
  fun d e => ((m ((c : Thread nD τ).loc main_arg1) : S64x64.Idx → Elt Ideal .f32) (ix2 d e) : EReal)
/-- The masked attention: attention times the mask read as a number. -/
def amA (c : Dev nD) : Fin 2048 → Fin 2048 → EReal :=
  fun n k => @HMul.hMul EReal EReal EReal _
    ((m ((c : Thread nD τ).loc main_arg2) : S2048x2048.Idx → Elt Ideal .f32) (ix2 n k))
    ((sitofp (F := Ideal) .f32 (m ((c : Thread nD τ).loc main_arg4) : S2048x2048.Idx → Elt Ideal .i32)) (ix2 n k))
/-- The bias vector. -/
def bA (c : Dev nD) : Fin 64 → EReal :=
  fun e => ((m ((c : Thread nD τ).loc main_arg3) : S64.Idx → Elt Ideal .f32) (ix1 e) : EReal)

/-- A grid point's two coordinates. -/
def qiOf (t : Fin cfg0.N) : Fin 8 := ⟨(grid0.coords t 0).val, (idx_facts t).2.2.2.2.2.1⟩
def kiOf (t : Fin cfg0.N) : Fin 8 := ⟨(grid0.coords t 1).val, (idx_facts t).2.2.2.2.2.2⟩

theorem coords_facts : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The contribution of column tile `ki` to rows `256 qi + p`. -/
def contrib (c : Dev nD) (qi ki : Fin 8) (b : Fin 16) (p : Fin 256) (q : Fin 64) : EReal :=
  ∑ j : Fin 256, adjK (xA m c) (amA m c) b (col qi p) (col ki j) * support (xA m c) (wA m c) b (col ki j) q

/-! ## The stored value of one trip -/

/-- The stored value over any blocks that read the arrays `x`, `w` and the masked attention `am` at the
    tile `(qi, ki)`: the accumulator's entry plus the tile's contribution. -/
theorem glue_core (v3 : Vec Ideal S256x256 .f32) (v4 : Vec Ideal S256x256 .i32) (v7 : Vec Ideal S64x64 .f32)
    (X : Vec Ideal S16x2048x64 .f32) (r0 : Vec Ideal S16x256x64 .f32) (b : Fin 16) (p : Fin 256) (q : Fin 64) (qi ki : Fin 8)
    (x : Fin 16 → Fin 2048 → Fin 64 → EReal) (w : Fin 64 → Fin 64 → EReal) (am : Fin 2048 → Fin 2048 → EReal)
    (hx : ∀ b n d, X (ix3 b n d) = x b n d) (hw : ∀ d e, v7 (ix2 d e) = w d e)
    (ham : ∀ p j, v3 (ix2 p j) * (sitofp (F := Ideal) .f32 v4) (ix2 p j) = am (col qi p) (col ki j)) :
    k0_pay2 (F := Ideal) v3 v4 v7 (rowsAt X b qi) (rowsAt X b ki) (fun y => r0 (ix3 b (y 1) (y 2))) (ix3 (0 : Fin 1) p q)
      = r0 (ix3 b p q) + ∑ j : Fin 256, adjK x am b (col qi p) (col ki j) * support x w b (col ki j) q := by
  refine (pay2_apply _ _ _ _ _ _ p q).trans ?_
  refine congrArg₂ (· + ·) rfl ?_
  refine Finset.sum_congr rfl fun j _ => ?_
  unfold adjK support GraphConv.sq gram
  show (v3 (ix2 p j) * (sitofp (F := Ideal) .f32 v4) (ix2 p j)
        * (Ideal.rsqrt (∑ d : Fin 64, X (ix3 b (col qi p) d) * X (ix3 b (col qi p) d))
          * Ideal.rsqrt (∑ d : Fin 64, X (ix3 b (col ki j) d) * X (ix3 b (col ki j) d)))
        * (∑ d : Fin 64, X (ix3 b (col qi p) d) * X (ix3 b (col ki j) d)))
      * (∑ d : Fin 64, X (ix3 b (col ki j) d) * v7 (ix2 d q)) = _
  rw [ham]
  simp only [hx, hw]

/-- The attention block times the mask block is the masked attention's tile. -/
theorem blk_am (c : Dev nD) (t : Fin cfg0.N) (p j : Fin 256) :
    @HMul.hMul EReal EReal EReal _ ((iblk m c 2 t : Vec Ideal S256x256 .f32) (ix2 p j))
        ((sitofp (F := Ideal) .f32 (iblk m c 3 t : Vec Ideal S256x256 .i32)) (ix2 p j))
      = amA m c (col (qiOf t) p) (col (kiOf t) j) :=
  (congrArg₂ (fun a b : EReal => a * b) (iblk2_apply m c t p j)
    (congrArg (FloatOps.sitofp (F := Ideal) .f32) (iblk3_apply m c t p j))).trans rfl

/-- The stored value of one trip, from the three loads through the whole staging buffers and the rows and the
    accumulator's row block of batch `b`: the accumulator plus the point's tile contribution. -/
theorem glue (c : Dev nD) (t : Fin cfg0.N) (r0 : Vec Ideal S16x256x64 .f32) (b : Fin 16) (p : Fin 256) (q : Fin 64) :
    k0_pay2 (F := Ideal)
        (View.readAt (Elt Ideal) (ms2 t).view (Rect.unit (s := S256x256) ![0, 0] S256x256.size inb_S256x256_S256x256_0_0).toLoadRect ((hs2 t).unread (iblk m c 2 t)))
        (View.readAt (Elt Ideal) (ms3 t).view (Rect.unit (s := S256x256) ![0, 0] S256x256.size inb_S256x256_S256x256_0_0).toLoadRect ((hs3 t).unread (iblk m c 3 t)))
        (View.readAt (Elt Ideal) (ms1 t).view (Rect.unit (s := S64x64) ![0, 0] S64x64.size inb_S64x64_S64x64_0_0).toLoadRect ((hs1 t).unread (iblk m c 1 t)))
        (rowsAt (iblk m c 0 t : Vec Ideal S16x2048x64 .f32) b (grid0.coords t 0))
        (rowsAt (iblk m c 0 t : Vec Ideal S16x2048x64 .f32) b (grid0.coords t 1))
        (fun y => r0 (ix3 b (y 1) (y 2)))
        (ix3 (0 : Fin 1) p q)
      = r0 (ix3 b p q) + contrib m c (qiOf t) (kiOf t) b p q := by
  rw [readAt_S256x256 (ms2 t) (hs2 t) inb_S256x256_S256x256_0_0 (iblk m c 2 t),
    readAt_S256x256 (ms3 t) (hs3 t) inb_S256x256_S256x256_0_0 (iblk m c 3 t),
    readAt_S64x64 (ms1 t) (hs1 t) inb_S64x64_S64x64_0_0 (iblk m c 1 t)]
  exact glue_core (iblk m c 2 t) (iblk m c 3 t) (iblk m c 1 t) (iblk m c 0 t) r0 b p q (qiOf t) (kiOf t)
    (xA m c) (wA m c) (amA m c) (fun b n d => iblk0_apply m c t b n d) (fun d e => iblk1_apply m c t d e)
    (fun p j => blk_am m c t p j)

end Cert.KernelIdeal.Hand

end
-- ==== Proof.ValueI.lean ====
/-
  The value of the graph-convolution kernel at the extended reals.

  After the grid point `(qi, ki)` the accumulator holds, at `(b, p, q)`, the sum over the column tiles `k ≤ ki` of
  `∑ j, adj b (256 qi + p) (256 k + j) * support b (256 k + j) q`: each point adds its tile's contribution to what the
  point before left, starting from zero at `ki = 0`.  At `ki = 7` the output block is that sum over all eight tiles
  plus the bias, so the output array ends, at `(b, n, q)`, at the tile-by-tile sum `GraphConv.outK` of the argument
  arrays — every index lies in the block of the point `(n / 256, 7)`.
-/
import proofs.«139093_j82867099009361_2_alg».proof.Proof.GlueI
import Idealize.ShloMosaic.Lib.ValueIdx
import Idealize.ShloMosaic.Lib.Pipeline.Value
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.KernelIdeal.Payload Cert.KernelIdeal.Blocks GraphConv
open scoped BigOperators

variable (m : (ℓ : Loc nD τ sig) → Buf (Elt Ideal) ℓ) (ρ : Dev nD → PrngReg)

/-! ## One grid point -/

/-- One point's loop adds the point's tile contribution to the accumulator's contents at loop entry. -/
theorem sNext_apply (c : Dev nD) (t : Fin cfg0.N) (G : BufTy.Contents (Elt Ideal) (scM).view.ty) (b : Fin 16) (p : Fin 256) (q : Fin 64) :
    sNext m c t G (ix3 b p q) = (scM).view.read (Elt Ideal) G (ix3 b p q) + contrib m c (qiOf t) (kiOf t) b p q := by
  unfold sNext loopOut
  rw [trips_eq, read_after_trips]
  exact glue m c t _ b p q

/-- The zeroed accumulator reads zero. -/
theorem read_zeroed (b : Fin 16) (p : Fin 256) (q : Fin 64) :
    (scM).view.read (Elt Ideal) (zeroed (F := Ideal) scM) (ix3 b p q) = 0 := by
  unfold zeroed zeroFill
  refine (View.read_writes_cons_unit_of_mem (Val := Elt Ideal) (scM).view _ inb_S16x256x64_S16x256x64_0_0_0 (k0_pay1 (F := Ideal)) [] (ix3 b p q) (ix3 b p q) rfl (fun a => by match a with | ⟨0, _⟩ => exact (Nat.zero_add _).symm | ⟨1, _⟩ => exact (Nat.zero_add _).symm | ⟨2, _⟩ => exact (Nat.zero_add _).symm)).trans ?_
  exact pay1_apply b p q

/-- What the accumulator holds when point `n`'s loop is entered: zero where the column tile is the first, else what the
    point before left. -/
theorem read_entryAt (c : Dev nD) (n : ℕ) (h : n < cfg0.N) (b : Fin 16) (p : Fin 256) (q : Fin 64) :
    (scM).view.read (Elt Ideal) (entryAt m c n h) (ix3 b p q)
      = if n % 8 = 0 then 0 else scrAt m c (n - 1) (Nat.lt_of_le_of_lt (Nat.sub_le _ _) h) (ix3 b p q) := by
  by_cases h0 : n % 8 = 0
  · rw [if_pos h0, entryAt_zero m c n h h0]; exact read_zeroed b p q
  · rw [if_neg h0, entryAt_pos m c n h h0, (hsc).read_unread]

/-- Column tile `k`'s contribution, indexed by a natural number. -/
def contribN (c : Dev nD) (qi : Fin 8) (k : ℕ) (b : Fin 16) (p : Fin 256) (q : Fin 64) : EReal :=
  if h : k < 8 then contrib m c qi ⟨k, h⟩ b p q else 0

theorem N64 : cfg0.N = 64 := N_0

/-- The recurrence along a row of grid points. -/
theorem scrAt_step (c : Dev nD) (n : ℕ) (h : n < cfg0.N) (b : Fin 16) (p : Fin 256) (q : Fin 64) :
    scrAt m c n h (ix3 b p q)
      = (if n % 8 = 0 then 0 else scrAt m c (n - 1) (Nat.lt_of_le_of_lt (Nat.sub_le _ _) h) (ix3 b p q))
        + contribN m c ⟨n / 8, by have := N64; omega⟩ (n % 8) b p q := by
  rw [scrAt_eq, sNext_apply, read_entryAt]
  have hq : qiOf ⟨n, h⟩ = ⟨n / 8, by have := N64; omega⟩ := Fin.ext (coords_facts ⟨n, h⟩).1
  have hk : kiOf ⟨n, h⟩ = ⟨n % 8, Nat.mod_lt _ (by norm_num)⟩ := Fin.ext (coords_facts ⟨n, h⟩).2
  rw [hq, hk]; unfold contribN; rw [dif_pos (Nat.mod_lt _ (by norm_num))]

/-- After the point with column tile `ki` the accumulator holds the contributions of the tiles up to `ki`. -/
theorem scrAt_apply (c : Dev nD) (b : Fin 16) (p : Fin 256) (q : Fin 64) : ∀ (n : ℕ) (h : n < cfg0.N),
    scrAt m c n h (ix3 b p q) = ∑ k ∈ Finset.range (n % 8 + 1), contribN m c ⟨n / 8, by have := N64; omega⟩ k b p q := by
  intro n
  induction n with
  | zero => intro h; rw [scrAt_step]; simp
  | succ n ih =>
    intro h
    rw [scrAt_step]
    by_cases h0 : (n + 1) % 8 = 0
    · rw [if_pos h0, h0]; simp
    · rw [if_neg h0]
      have hn : n + 1 - 1 = n := rfl
      have e1 : (n + 1) / 8 = n / 8 := by omega
      have e2 : (n + 1) % 8 = n % 8 + 1 := by omega
      rw [Finset.sum_range_succ]
      congr 1
      have hq : (⟨(n + 1) / 8, by have := N64; omega⟩ : Fin 8) = ⟨n / 8, by have := N64; omega⟩ := Fin.ext e1
      rw [hq, e2]
      exact ih (Nat.lt_of_succ_lt h)

/-! ## The output block and the output array -/

/-- Where the output block is stored it holds the tile-by-tile sum of the block's rows. -/
theorem outAt_apply (c : Dev nD) (t : Fin cfg0.N) (h7 : t.val % 8 = 7) (b : Fin 16) (p : Fin 256) (q : Fin 64) :
    outAt m c t (ix3 b p q) = outK (xA m c) (wA m c) (amA m c) (bA m c) b (col (qiOf t) p) q := by
  unfold outAt outStore
  refine (View.read_writes_cons_unit_of_mem (Val := Elt Ideal) (ms5 t).view _ inb_S16x256x64_S16x256x64_0_0_0 _ [] (ix3 b p q) (ix3 b p q) rfl (fun a => by match a with | ⟨0, _⟩ => exact (Nat.zero_add _).symm | ⟨1, _⟩ => exact (Nat.zero_add _).symm | ⟨2, _⟩ => exact (Nat.zero_add _).symm)).trans ?_
  rw [pay3_apply]
  rw [readAt_whole (scM) zero3, readAt_S1x1x64 (ms4 t) (hs4 t), iblk4_apply m c t q]
  have hs : (scM).view.read (Elt Ideal) (loopOut (F := Ideal) c (grid0.coords t) (ms0 t) (hs0 t) (ms1 t) (hs1 t) (ms2 t) (hs2 t) (ms3 t) (hs3 t) (ms4 t) (hs4 t) (ms5 t) (hs5 t) scM hsc (iblk m c 0 t) (iblk m c 1 t) (iblk m c 2 t) (iblk m c 3 t) (entryAt m c t.val t.isLt)) = scrAt m c t.val t.isLt := (scrAt_eq m c t.val t.isLt).symm
  rw [hs, scrAt_apply m c b p q t.val t.isLt, h7]
  unfold outK bA
  congr 1
  rw [Finset.sum_range (fun k => contribN m c ⟨t.val / 8, by have := N64; have := t.isLt; omega⟩ k b p q)]
  refine Finset.sum_congr rfl fun k _ => ?_
  unfold contribN; rw [dif_pos k.isLt]
  have hq : (⟨t.val / 8, by have := N64; have := t.isLt; omega⟩ : Fin 8) = qiOf t := Fin.ext (coords_facts t).1.symm
  rw [hq]; rfl

/-- The output array's final contents: the tile-by-tile sum at each index. -/
def Gout (c : Dev nD) : Buf (Elt Ideal) ((cfg0.win 5).arr.view.loc (c.tc : Thread nD τ)) :=
  fun i => (fun (j : S16x2048x64.Idx) => outK (xA m c) (wA m c) (amA m c) (bA m c) (j 0) (j 1) (j 2)) i

/-- What the point `(qi, 7)` writes back is the block of rows `256 qi … 256 qi + 255` of `Gout`. -/
theorem flushed_eq (c : Dev nD) (t : Fin cfg0.N) (hf : (cfg0.win 5).flush t = true) :
    (dats m 0 c).flushed 5 t = ((cfg0.win 5).blk t).view.read (Elt Ideal) (Gout m c) := by
  have h7 : t.val % 8 = 7 := (flush0_5 t).mp hf
  show (cfg0.win 5).cut (grid0.coords t) ((dats m 0 c).after 5 t) = _
  rw [after5]
  funext y
  obtain ⟨b, p, q, rfl⟩ : ∃ (b : Fin 16) (p : Fin 256) (q : Fin 64), y = ix3 b p q := ⟨y 0, y 1, y 2, eq_ix3 y⟩
  refine Eq.trans ?_ (blk5_read c (Gout m c) t b p q).symm
  refine (outAt_apply m c t h7 b p q).trans ?_
  rfl

/-- The output array after the run. -/
theorem final (c : Dev nD) : (dats m 0 c).arrAt 5 cfg0.N = Gout m c :=
  (dats m 0 c).arrAt_eq_of_cover 5 (Gout m c) (fun t hf => flushed_eq m c t hf) (cover5 c)

/-- Every weakly fair execution of the idealized kernel terminates with the output array at the tile-by-tile sum of the
    argument arrays and the argument arrays unchanged. -/
theorem value_run : θ_run defs (onTc (τ := τ) (main (F := Ideal))) ⟨m, fun _ => 0, ρ⟩ (fun r => ∀ c : Dev nD,
      r.2.mem ((c.tc : Thread nD τ).loc main_v1) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c)))⟩) (run_main m ρ)

end Cert.KernelIdeal.Hand

end
-- ==== Proof.RefValue.lean ====
/-
  The reference program's result, read at one coordinate, is the graph convolution with the quotient
  adjacency summed over all 2048 columns.
-/
import proofs.«139093_j82867099009361_2_alg».proof.Proof.Gen.ReferenceIdeal.Read
import proofs.«139093_j82867099009361_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

variable (x0 : (⟨S16x2048x64, .f32⟩ : BufTy).Contents (Elt Ideal))
  (x1 : (⟨S64x64, .f32⟩ : BufTy).Contents (Elt Ideal))
  (x2 : (⟨S2048x2048, .f32⟩ : BufTy).Contents (Elt Ideal))
  (x3 : (⟨S64, .f32⟩ : BufTy).Contents (Elt Ideal))
  (x4 : (⟨S2048x2048, .i32⟩ : BufTy).Contents (Elt Ideal))

/-- The rows as a function of their coordinates. -/
abbrev X : Fin 16 → Fin 2048 → Fin 64 → EReal := fun b n d => x0 (ix3 b n d)

/-- The sum of squares of row `n` of batch `b`. -/
theorem sq_apply (b : Fin 16) (n : Fin 2048) :
    val_main_call0_v1 (F := Ideal) x0 (ix2 b n) = GraphConv.sq (X x0) b n := by
  rw [val_main_call0_v1_apply, val_main_call0_cst_apply, Ideal.ofBits_def, Ideal.ofBits_zero_f32, zero_add]
  unfold GraphConv.sq
  refine Finset.sum_congr rfl fun k _ => ?_
  rw [val_main_call0_v0_apply, Ideal.mulf_def]
  have h : idx_main_call0_v1 (ix2 b n) k = ix3 b n k :=
    funext fun a => by match a with | ⟨0, _⟩ => rfl | ⟨1, _⟩ => rfl | ⟨2, _⟩ => rfl
  rw [h]

/-- The length of row `n` of batch `b`. -/
theorem norm_apply (b : Fin 16) (n : Fin 2048) (z : Fin 1) :
    val_main_v2 (F := Ideal) x0 (ix3 b n z) = Ideal.sqrt (GraphConv.sq (X x0) b n) := by
  rw [val_main_v2_apply, Ideal.hostUnary_sqrt_def, val_main_call0_v2_apply]
  have h : idx_main_call0_v2 (ix3 b n z) = ix2 b n :=
    funext fun a => by match a with | ⟨0, _⟩ => rfl | ⟨1, _⟩ => rfl
  rw [h, sq_apply]

/-- The inner product of rows `n` and `m` of batch `b`. -/
theorem gram_apply (b : Fin 16) (n m : Fin 2048) :
    val_main_v1 (F := Ideal) x0 (ix3 b n m) = GraphConv.gram (X x0) b n m := by
  rw [val_main_v1_apply]
  unfold GraphConv.gram
  refine Finset.sum_congr rfl fun k _ => ?_
  have hl : lidx_main_v1 (ix3 b n m) k = ix3 b n k :=
    funext fun a => by match a with | ⟨0, _⟩ => rfl | ⟨1, _⟩ => rfl | ⟨2, _⟩ => rfl
  have hr : ridx_main_v1 (ix3 b n m) k = ix3 b m k :=
    funext fun a => by match a with | ⟨0, _⟩ => rfl | ⟨1, _⟩ => rfl | ⟨2, _⟩ => rfl
  rw [hl, hr]

/-- Row `m` of batch `b` times the weight matrix, at column `e`. -/
theorem support_apply (b : Fin 16) (m : Fin 2048) (e : Fin 64) :
    val_main_v0 (F := Ideal) x0 x1 (ix3 b m e)
      = GraphConv.support (X x0) (fun d e => x1 (ix2 d e)) b m e := by
  rw [val_main_v0_apply]
  unfold GraphConv.support
  refine Finset.sum_congr rfl fun k _ => ?_
  have hl : lidx_main_v0 (ix3 b m e) k = ix3 b m k :=
    funext fun a => by match a with | ⟨0, _⟩ => rfl | ⟨1, _⟩ => rfl | ⟨2, _⟩ => rfl
  have hr : ridx_main_v0 (ix3 b m e) k = ix2 k e :=
    funext fun a => by match a with | ⟨0, _⟩ => rfl | ⟨1, _⟩ => rfl
  rw [hl, hr]

/-- The product of the lengths of rows `n` and `m`. -/
theorem norms_apply (b : Fin 16) (n m : Fin 2048) :
    val_main_v6 (F := Ideal) x0 (ix3 b n m)
      = Ideal.sqrt (GraphConv.sq (X x0) b n) * Ideal.sqrt (GraphConv.sq (X x0) b m) := by
  rw [val_main_v6_apply, Ideal.mulf_def, val_main_v4_apply, val_main_v5_apply, val_main_v3_apply]
  have h4 : idx_main_v4 (ix3 b n m) = ix3 b n (⟨0, Nat.one_pos⟩ : Fin 1) :=
    funext fun a => by match a with | ⟨0, _⟩ => rfl | ⟨1, _⟩ => rfl | ⟨2, _⟩ => rfl
  have h5 : idx_main_v3 (idx_main_v5 (ix3 b n m)) = ix3 b m (⟨0, Nat.one_pos⟩ : Fin 1) :=
    funext fun a => by match a with | ⟨0, _⟩ => rfl | ⟨1, _⟩ => rfl | ⟨2, _⟩ => rfl
  rw [h4, h5, norm_apply, norm_apply]

/-- The masked attention at `(n, m)`. -/
theorem mask_apply (b : Fin 16) (n m : Fin 2048) :
    val_main_v11 (F := Ideal) x2 x4 (ix3 b n m)
      = x2 (ix2 n m) * (sitofp (F := Ideal) .f32 x4) (ix2 n m) := by
  rw [val_main_v11_apply, val_main_v10_apply, val_main_v9_apply, Ideal.mulf_def, val_main_v8_apply]
  have h : idx_main_v10 (idx_main_v11 (ix3 b n m)) = ix2 n m :=
    funext fun a => by match a with | ⟨0, _⟩ => rfl | ⟨1, _⟩ => rfl
  rw [h]
  rfl

/-- The adjacency at `(b, n, m)`: the masked attention times the quotient of the inner product by the
    product of the lengths. -/
theorem adj_apply (b : Fin 16) (n m : Fin 2048) :
    val_main_v12 (F := Ideal) x0 x2 x4 (ix3 b n m)
      = GraphConv.adjR (X x0)
          (fun n m => x2 (ix2 n m) * (sitofp (F := Ideal) .f32 x4) (ix2 n m)) b n m := by
  rw [val_main_v12_apply, Ideal.mulf_def, val_main_v7_apply, Ideal.hostDivf_def, mask_apply, gram_apply,
    norms_apply]
  rfl

/-- The bias at column `e`. -/
theorem bias_apply (b : Fin 16) (n : Fin 2048) (e : Fin 64) :
    val_main_v15 (F := Ideal) x3 (ix3 b n e) = x3 (ix1 e) := by
  rw [val_main_v15_apply, val_main_v14_apply]
  have h : idx_main_v14 (idx_main_v15 (ix3 b n e)) = ix1 e :=
    funext fun a => by match a with | ⟨0, _⟩ => rfl
  rw [h]

/-- The reference's result at `(b, n, e)` is the graph convolution with the quotient adjacency, summed
    over all columns. -/
theorem ref_apply (b : Fin 16) (n : Fin 2048) (e : Fin 64) :
    val_main_v16 (F := Ideal) x0 x1 x2 x3 x4 (ix3 b n e)
      = GraphConv.outR (fun b n d => x0 (ix3 b n d)) (fun d e => x1 (ix2 d e))
          (fun n m => x2 (ix2 n m) * (sitofp (F := Ideal) .f32 x4) (ix2 n m)) (fun e => x3 (ix1 e)) b n e := by
  rw [val_main_v16_apply, Ideal.addf_def, val_main_v13_apply, bias_apply]
  unfold GraphConv.outR
  refine congrArg (· + _) (Finset.sum_congr rfl fun m _ => ?_)
  have hl : lidx_main_v13 (ix3 b n e) m = ix3 b n m :=
    funext fun a => by match a with | ⟨0, _⟩ => rfl | ⟨1, _⟩ => rfl | ⟨2, _⟩ => rfl
  have hr : ridx_main_v13 (ix3 b n e) m = ix3 b m e :=
    funext fun a => by match a with | ⟨0, _⟩ => rfl | ⟨1, _⟩ => rfl | ⟨2, _⟩ => rfl
  rw [hl, hr, adj_apply, support_apply]

end Cert.ReferenceIdeal.RefValue

end
-- ==== Proof.Algebra.lean ====
/-
  The two arrangements of the masked cosine-similarity graph convolution agree when the rows are
  real-valued with positive squared length.

  Two facts are used. First, the columns `m < 2048` are in bijection with the pairs
  `(k, j)`, `k < 8`, `j < 256`, through `m = 256 k + j`, so the sum over all columns is the sum
  tile by tile. Second, for real rows of positive length the squared lengths `s_n, s_m` are positive
  reals and the inner product `g` is a real, so
  `(1/√s_n · 1/√s_m) · g = g / (√s_n · √s_m)` in the reals; the masked attention entry is an
  arbitrary extended real and is only moved by associativity of the product.
-/
import proofs.«139093_j82867099009361_2_alg».proof.Proof.Spec
import Mathlib.Tactic

noncomputable section

open scoped BigOperators
open Idealize.ShloMosaic

namespace GraphConv

/-- A finite sum of reals, each read as an extended real, is the sum read as an extended real. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The columns are the pairs (tile, column within the tile): `m = 256 k + j`. -/
def colEquiv : Fin 8 × Fin 256 ≃ Fin 2048 where
  toFun p := col p.1 p.2
  invFun m := (⟨m.val / 256, by omega⟩, ⟨m.val % 256, by omega⟩)
  left_inv := by
    rintro ⟨k, j⟩
    ext
    · simp only [col]; omega
    · simp only [col]; omega
  right_inv := by
    intro m
    ext
    simp only [col]
    omega

/-- A sum over all columns is the sum tile by tile. -/
theorem sum_col (f : Fin 2048 → EReal) :
    (∑ k : Fin 8, ∑ j : Fin 256, f (col k j)) = ∑ m : Fin 2048, f m := by
  rw [← Equiv.sum_comp colEquiv f, Fintype.sum_prod_type]
  rfl

variable (x : Fin 16 → Fin 2048 → Fin 64 → EReal) (w : Fin 64 → Fin 64 → EReal)
  (am : Fin 2048 → Fin 2048 → EReal) (bias : Fin 64 → EReal)

/-- For real rows of positive squared length the two adjacencies agree. -/
theorem adjK_eq_adjR (hx : ∀ b n d, ∃ r : ℝ, x b n d = (r : EReal))
    (hpos : ∀ b n, 0 < sq x b n) (b : Fin 16) (n m : Fin 2048) :
    adjK x am b n m = adjR x am b n m := by
  choose xr hxr using hx
  have hsq : ∀ n', sq x b n' = ((∑ d : Fin 64, xr b n' d * xr b n' d : ℝ) : EReal) := by
    intro n'
    unfold sq
    rw [← coe_finset_sum]
    refine Finset.sum_congr rfl fun d _ => ?_
    rw [hxr, EReal.coe_mul]
  have hg : gram x b n m = ((∑ d : Fin 64, xr b n d * xr b m d : ℝ) : EReal) := by
    unfold gram
    rw [← coe_finset_sum]
    refine Finset.sum_congr rfl fun d _ => ?_
    rw [hxr, hxr, EReal.coe_mul]
  have hn : 0 < (∑ d : Fin 64, xr b n d * xr b n d : ℝ) := by
    have := hpos b n
    rw [hsq] at this
    exact_mod_cast this
  have hm : 0 < (∑ d : Fin 64, xr b m d * xr b m d : ℝ) := by
    have := hpos b m
    rw [hsq] at this
    exact_mod_cast this
  set sn : ℝ := ∑ d : Fin 64, xr b n d * xr b n d with hsn
  set sm : ℝ := ∑ d : Fin 64, xr b m d * xr b m d with hsm
  set g : ℝ := ∑ d : Fin 64, xr b n d * xr b m d with hgdef
  have hrn : 0 < Real.sqrt sn := Real.sqrt_pos.mpr hn
  have hrm : 0 < Real.sqrt sm := Real.sqrt_pos.mpr hm
  have hne : Real.sqrt sn * Real.sqrt sm ≠ 0 := (mul_pos hrn hrm).ne'
  have hsqn : sq x b n = ((sn : ℝ) : EReal) := hsq n
  have hsqm : sq x b m = ((sm : ℝ) : EReal) := hsq m
  have hreal : (Real.sqrt sn)⁻¹ * (Real.sqrt sm)⁻¹ * g = g * (1 / (Real.sqrt sn * Real.sqrt sm)) := by
    rw [one_div, mul_inv]
    ring
  unfold adjK adjR
  rw [hsqn, hsqm, hg, Ideal.rsqrt_coe, Ideal.rsqrt_coe, Ideal.sqrt_coe, Ideal.sqrt_coe,
    if_neg (not_lt.mpr hn.le), if_neg (not_lt.mpr hm.le), if_neg hn.ne', if_neg hm.ne',
    if_neg (not_lt.mpr hn.le), if_neg (not_lt.mpr hm.le),
    ← EReal.coe_mul, ← EReal.coe_mul, Ideal.div_coe hne, ← EReal.coe_mul, mul_assoc,
    ← EReal.coe_mul]
  rw [hreal]

/-- The result summed tile by tile with reciprocal lengths is the result summed over all columns
    with the quotient, for real rows of positive squared length. -/
theorem outK_eq_outR (x : Fin 16 → Fin 2048 → Fin 64 → EReal) (w : Fin 64 → Fin 64 → EReal)
    (am : Fin 2048 → Fin 2048 → EReal) (bias : Fin 64 → EReal)
    (hx : ∀ b n d, ∃ r : ℝ, x b n d = (r : EReal)) (hpos : ∀ b n, 0 < sq x b n)
    (b : Fin 16) (n : Fin 2048) (e : Fin 64) :
    outK x w am bias b n e = outR x w am bias b n e := by
  unfold outK outR
  rw [sum_col (fun m => adjK x am b n m * support x w b m e)]
  congr 1
  refine Finset.sum_congr rfl fun m _ => ?_
  rw [adjK_eq_adjR x am hx hpos b n m]

end GraphConv

end
-- ==== Proof.PreFacts.lean ====
/-
  What the precondition says of the first input. The precondition is the conjunction of one-bit words:
  for each of the four float inputs, "every entry has absolute value below `+∞`", and, for the first
  input, "every row's sum of squares along the last axis is above zero". Each of these is an "all" over
  an array of comparison words, so the conjunction being 1 gives every comparison at every index.
  Over the extended reals, `max x (-x) < ⊤` holds only of a real `x`, and the row's sum of squares from
  the initial value zero is the squared length of the row.
-/
import proofs.«139093_j82867099009361_2_alg».proof.Defs
import proofs.«139093_j82867099009361_2_alg».proof.Proof.Gen.Pre_finite_inputs
import proofs.«139093_j82867099009361_2_alg».proof.Proof.Spec
import Idealize.ShloMosaic.Lib.ReduceAll
import Idealize.ShloMosaic.Lib.ValueIdx
import Idealize.ShloMosaic.PureOps.Ideal.Laws

noncomputable section

open scoped BigOperators
open Idealize.ShloMosaic Idealize.ShloMosaic.ValueIdx

namespace PreFacts

open Cert.Pre_finite_inputs

variable [Cert.Pre_finite_inputs.Facts]

/-- The rank-0 shape has one index. -/
instance subsingleton_S_ : Subsingleton S_.Idx := ⟨fun a b => funext fun d => d.elim0⟩

/-- An extended real whose absolute value is below `+∞` is a real. -/
theorem exists_real_of_abs_lt_top (x : EReal) (h : max x (-x) < ⊤) : ∃ r : ℝ, x = (r : EReal) := by
  induction x using EReal.rec with
  | bot => simp at h
  | coe r => exact ⟨r, rfl⟩
  | top => simp at h

/-- The f32 pattern of `+∞` is `⊤`. -/
theorem ofBits_inf_f32 : Ideal.ofBits .f32 0x7F800000#32 = ⊤ := by simp [Ideal.ofBits, Ideal.ieee]

/-- A "less than" comparison word that is 1 says the comparison holds. -/
theorem lt_of_cmp_olt {x y : EReal} (h : Ideal.cmp .olt x y = 1#1) : x < y := by
  by_contra hn
  simp [Ideal.cmp, hn] at h

/-- A "greater than" comparison word that is 1 says the comparison holds. -/
theorem lt_of_cmp_ogt {x y : EReal} (h : Ideal.cmp .ogt x y = 1#1) : y < x := by
  by_contra hn
  simp [Ideal.cmp, hn] at h

/-- The sum of the squares along the last axis, from zero, read at row `(b, n)`, is the squared length of that row. -/
theorem rowsum_apply (a0 : FVec Ideal S16x2048x64 .f32) (b : Fin 16) (n : Fin 2048) :
    Host.reduceAdd (F := Ideal) (mulf a0 a0) (constant S_ .f32 0x00000000#32)
        Facts.reducesTo_S16x2048x64_S16x2048_d2 Facts.h_S_ (ix2 b n)
      = GraphConv.sq (fun b n d => a0 (ix3 b n d)) b n := by
  simp only [Host.reduceAdd, Ideal.hostReduceAdd_def]
  rw [Ideal.hostReduceAdd_single Facts.reducesTo_S16x2048x64_S16x2048_d2 (by decide)]
  unfold GraphConv.sq
  rw [constant_apply, Ideal.ofBits_zero_f32, zero_add]
  refine Finset.sum_congr rfl fun k _ => ?_
  rw [mulf_apply]
  have hk : ∀ i : S16x2048x64.Idx, i = ix3 b n k → a0 i * a0 i = a0 (ix3 b n k) * a0 (ix3 b n k) := by
    rintro _ rfl
    rfl
  exact hk _ (funext fun a => Fin.ext (by match a with | ⟨0, _⟩ => rfl | ⟨1, _⟩ => rfl | ⟨2, _⟩ => rfl))

end PreFacts

open Cert.Pre_finite_inputs PreFacts in
theorem pre_facts [Cert.Pre_finite_inputs.Facts] (a0 : FVec Ideal Cert.Pre_finite_inputs.S16x2048x64 .f32) (a1 : FVec Ideal Cert.Pre_finite_inputs.S64x64 .f32) (a2 : FVec Ideal Cert.Pre_finite_inputs.S2048x2048 .f32) (a3 : FVec Ideal Cert.Pre_finite_inputs.S64 .f32) (a4 : IVec Cert.Pre_finite_inputs.S2048x2048 32)
    (h : Cert.Pre_finite_inputs.fn (F := Ideal) a0 a1 a2 a3 a4 = fun _ => 1#1) :
    (∀ (b : Fin 16) (n : Fin 2048) (d : Fin 64), ∃ r : ℝ, a0 (ValueIdx.ix3 b n d) = (r : EReal))
    ∧ (∀ (b : Fin 16) (n : Fin 2048), 0 < GraphConv.sq (fun b n d => a0 (ValueIdx.ix3 b n d)) b n) := by
  have h0 := congrFun h ValueIdx.ix0
  dsimp only [Cert.Pre_finite_inputs.fn, Cert.Pre_finite_inputs.fn_part1] at h0
  obtain ⟨h18, h23⟩ := IntOp.andi_eq_one.1 h0
  obtain ⟨h13, -⟩ := IntOp.andi_eq_one.1 h18
  obtain ⟨h8, -⟩ := IntOp.andi_eq_one.1 h13
  obtain ⟨h3, -⟩ := IntOp.andi_eq_one.1 h8
  clear h0 h18 h13 h8
  refine ⟨fun b n d => ?_, fun b n => ?_⟩
  · have e := Host.reduce_andi_all _ _ _ _ _ h3 (ix3 b n d)
    have e' : Ideal.cmp .olt (max (a0 (ix3 b n d)) (-(a0 (ix3 b n d)))) (Ideal.ofBits .f32 0x7F800000#32) = 1#1 := e
    have hlt := lt_of_cmp_olt e'
    rw [ofBits_inf_f32] at hlt
    exact exists_real_of_abs_lt_top _ hlt
  · have e := Host.reduce_andi_all _ _ _ _ _ h23 (ix2 b n)
    have e' : Ideal.cmp .ogt (Host.reduceAdd (F := Ideal) (mulf a0 a0) (constant S_ .f32 0x00000000#32)
        Facts.reducesTo_S16x2048x64_S16x2048_d2 Facts.h_S_ (ix2 b n)) (Ideal.ofBits .f32 0x00000000#32) = 1#1 := e
    have hlt := lt_of_cmp_ogt e'
    rw [Ideal.ofBits_zero_f32, rowsum_apply] at hlt
    exact hlt

end
-- ==== Proof.lean ====
/-
  A masked cosine-similarity graph convolution: the kernel and its reference compute the same extended reals.

  Both programs compute, for each batch `b`, row `n` and output column `e`,
  `∑ m, adj b n m * (∑ d, x b m d * w d e) + bias e`, where `adj b n m` is the masked attention `att n m * mask n m`
  times the cosine of the angle between rows `n` and `m` of batch `b`.  The kernel multiplies the inner product by the
  two reciprocal row lengths and sums the columns `m` tile by tile into an accumulator it carries across the grid;
  the reference divides the inner product by the product of the two row lengths and sums all columns at once.  On the
  extended reals the two agree wherever every row of `x` is a nonzero vector of real numbers — the precondition:
  there the reciprocal square roots and the quotient are ordinary real arithmetic, and regrouping a finite sum into
  tiles changes nothing.  (At a zero row the reference's quotient is `0 / 0`.)

  The kernels' frames are proved at every grid point through the batch loop's invariant; the kernel's value is read
  off that run point by point; the reference's run is read back one operation at a time.
-/
import proofs.«139093_j82867099009361_2_alg».proof.Defs
import proofs.«139093_j82867099009361_2_alg».proof.Proof.Gen.Kernel
import proofs.«139093_j82867099009361_2_alg».proof.Proof.Gen.KernelIdeal
import proofs.«139093_j82867099009361_2_alg».proof.Proof.Gen.ReferenceIdeal
import proofs.«139093_j82867099009361_2_alg».proof.Proof.Gen.ReferenceIdeal.Run
import proofs.«139093_j82867099009361_2_alg».proof.Proof.Gen.ReferenceIdeal.Read
import proofs.«139093_j82867099009361_2_alg».proof.Proof.Gen.Pre_finite_inputs
import proofs.«139093_j82867099009361_2_alg».proof.Proof.BodyB
import proofs.«139093_j82867099009361_2_alg».proof.Proof.BodyI
import proofs.«139093_j82867099009361_2_alg».proof.Proof.ValueI
import proofs.«139093_j82867099009361_2_alg».proof.Proof.RefValue
import proofs.«139093_j82867099009361_2_alg».proof.Proof.Algebra
import proofs.«139093_j82867099009361_2_alg».proof.Proof.PreFacts
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The kernel runs to the end, faults nowhere and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The kernel's output array ends at the tile-by-tile sum of the argument arrays, the reference's result at the
    all-columns sum with the quotient; where every row of `x` is a nonzero real vector the two are equal. -/
theorem algebraic : Cert.algebraic_KernelIdeal_ReferenceIdeal := by
  intro m ρ m' ρ' hpre hagree
  refine ⟨fun c => Cert.KernelIdeal.Hand.Gout m c, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2.1, (hagree c).2.2.2.1, (hagree c).2.2.2.2]
  funext i
  obtain ⟨b, n, e, rfl⟩ : ∃ (b : Fin 16) (n : Fin 2048) (e : Fin 64), i = ix3 b n e := ⟨i 0, i 1, i 2, eq_ix3 i⟩
  have hp := pre_facts _ _ _ _ _ (hpre c)
  refine (Cert.ReferenceIdeal.RefValue.ref_apply _ _ _ _ _ b n e).trans ?_
  exact (GraphConv.outK_eq_outR _ _ _ _ hp.1 hp.2 b n e).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
